-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x16x128 : Shape := ⟨4, ![8, 512, 16, 128]⟩
abbrev S32x8 : Shape := ⟨2, ![32, 8]⟩
abbrev S32 : Shape := ⟨1, ![32]⟩
abbrev S8x32 : Shape := ⟨2, ![8, 32]⟩
abbrev S8 : Shape := ⟨1, ![8]⟩
abbrev S_ : Shape := ⟨0, ![]⟩

class Facts : Prop where
  bcast_S_S8x512x16x128 : S_.BroadcastsInDim S8x512x16x128 (![] : Fin 0 → Fin S8x512x16x128.rank)
  reducesTo_S8x512x16x128_S_d0_1_2_3 : S8x512x16x128.ReducesTo [0, 1, 2, 3] S_
  h_S_ : 0 < S_.numel
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S8x32 1) : IVec S_ 1 :=
  let main_c_5 : IVec S_ 1 := constantI S_ 1 1#1
  let main_v17 : IVec S_ 1 := (fun x v => Host.reduce IntOp.andi x v reducesTo_S8x32_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S8x512x16x128 .f32) (main_arg1 : FVec F S32x8 .f32) (main_arg2 : FVec F S32 .f32) (main_arg3 : FVec F S8x32 .f32) (main_arg4 : FVec F S8 .f32) : IVec S_ 1 :=
  let main_v0 : FVec F S8x512x16x128 .f32 := Host.absf main_arg0
  let main_cst : FVec F S_ .f32 := constant S_ .f32 0x7F800000#32
  let main_v1 : FVec F S8x512x16x128 .f32 := broadcastInDim S8x512x16x128 ![] bcast_S_S8x512x16x128 main_cst
  let main_v2 : IVec S8x512x16x128 1 := cmpf .olt main_v0 main_v1
  let main_c : IVec S_ 1 := constantI S_ 1 1#1
  let main_v3 : IVec S_ 1 := (fun x v => Host.reduce IntOp.andi x v reducesTo_S8x512x16x128_S_d0_1_2_3 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S8x32 .f32 := Host.absf main_arg3
  let main_cst_4 : FVec F S_ .f32 := constant S_ .f32 0x7F800000#32
  let main_v15 : FVec F S8x32 .f32 := broadcastInDim S8x32 ![] bcast_S_S8x32 main_cst_4
  let main_v16 : IVec S8x32 1 := cmpf .olt main_v14 main_v15
  fn_part1 (F := F) main_arg4 main_v13 main_v16
-- ==== Kernel.lean ====
abbrev S8x512x16x128 : Shape := ⟨4, ![8, 512, 16, 128]⟩
abbrev S32x8 : Shape := ⟨2, ![32, 8]⟩
abbrev S32 : Shape := ⟨1, ![32]⟩
abbrev S8x32 : Shape := ⟨2, ![8, 32]⟩
abbrev S8 : Shape := ⟨1, ![8]⟩
abbrev S32768x256 : Shape := ⟨2, ![32768, 256]⟩
abbrev S16x16 : Shape := ⟨2, ![16, 16]⟩
abbrev S_ : Shape := ⟨0, ![]⟩
abbrev S16x1x16x1 : Shape := ⟨4, ![16, 1, 16, 1]⟩
abbrev S1x32x1x8 : Shape := ⟨4, ![1, 32, 1, 8]⟩
abbrev S16x32x16x8 : Shape := ⟨4, ![16, 32, 16, 8]⟩
abbrev S512x128 : Shape := ⟨2, ![512, 128]⟩
abbrev S1x8x1x32 : Shape := ⟨4, ![1, 8, 1, 32]⟩
abbrev S16x8x16x32 : Shape := ⟨4, ![16, 8, 16, 32]⟩
abbrev S128x512 : Shape := ⟨2, ![128, 512]⟩
abbrev S1x32 : Shape := ⟨2, ![1, 32]⟩
abbrev S16x32 : Shape := ⟨2, ![16, 32]⟩
abbrev S512 : Shape := ⟨1, ![512]⟩
abbrev S512x1 : Shape := ⟨2, ![512, 1]⟩
abbrev S1x8 : Shape := ⟨2, ![1, 8]⟩
abbrev S16x8 : Shape := ⟨2, ![16, 8]⟩
abbrev S128 : Shape := ⟨1, ![128]⟩
abbrev S128x1 : Shape := ⟨2, ![128, 1]⟩
abbrev S4096x16x128 : Shape := ⟨3, ![4096, 16, 128]⟩
abbrev S512x256 : Shape := ⟨2, ![512, 256]⟩
abbrev S64x16x128 : Shape := ⟨3, ![64, 16, 128]⟩
abbrev S128x256 : Shape := ⟨2, ![128, 256]⟩
abbrev S16x8x2x128 : Shape := ⟨4, ![16, 8, 2, 128]⟩
abbrev S16x2x8x128 : Shape := ⟨4, ![16, 2, 8, 128]⟩
abbrev S16x16x128 : Shape := ⟨3, ![16, 16, 128]⟩

abbrev nBuf : Space → Nat
  | .hbm => 37
  | .vmem => 8
  | .smem => 0
  | _ => 0

abbrev bufTy : (tb : Table) → Fin (tcTables nBuf tb) → BufTy
  | .hbm, ⟨0, _⟩ => ⟨S8x512x16x128, .f32⟩
  | .hbm, ⟨1, _⟩ => ⟨S32x8, .f32⟩
  | .hbm, ⟨2, _⟩ => ⟨S32, .f32⟩
  | .hbm, ⟨3, _⟩ => ⟨S8x32, .f32⟩
  | .hbm, ⟨4, _⟩ => ⟨S8, .f32⟩
  | .hbm, ⟨5, _⟩ => ⟨S32768x256, .f32⟩
  | .hbm, ⟨6, _⟩ => ⟨S16x16, .i32⟩
  | .hbm, ⟨7, _⟩ => ⟨S16x16, .i32⟩
  | .hbm, ⟨8, _⟩ => ⟨S_, .i32⟩
  | .hbm, ⟨9, _⟩ => ⟨S16x16, .i32⟩
  | .hbm, ⟨10, _⟩ => ⟨S16x16, .i32⟩
  | .hbm, ⟨11, _⟩ => ⟨S16x16, .i1⟩
  | .hbm, ⟨12, _⟩ => ⟨S16x16, .f32⟩
  | .hbm, ⟨13, _⟩ => ⟨S16x1x16x1, .f32⟩
  | .hbm, ⟨14, _⟩ => ⟨S1x32x1x8, .f32⟩
  | .hbm, ⟨15, _⟩ => ⟨S16x32x16x8, .f32⟩
  | .hbm, ⟨16, _⟩ => ⟨S16x32x16x8, .f32⟩
  | .hbm, ⟨17, _⟩ => ⟨S16x32x16x8, .f32⟩
  | .hbm, ⟨18, _⟩ => ⟨S512x128, .f32⟩
  | .hbm, ⟨19, _⟩ => ⟨S512x128, .bf16⟩
  | .hbm, ⟨20, _⟩ => ⟨S16x1x16x1, .f32⟩
  | .hbm, ⟨21, _⟩ => ⟨S1x8x1x32, .f32⟩
  | .hbm, ⟨22, _⟩ => ⟨S16x8x16x32, .f32⟩
  | .hbm, ⟨23, _⟩ => ⟨S16x8x16x32, .f32⟩
  | .hbm, ⟨24, _⟩ => ⟨S16x8x16x32, .f32⟩
  | .hbm, ⟨25, _⟩ => ⟨S128x512, .f32⟩
  | .hbm, ⟨26, _⟩ => ⟨S128x512, .bf16⟩
  | .hbm, ⟨27, _⟩ => ⟨S1x32, .f32⟩
  | .hbm, ⟨28, _⟩ => ⟨S16x32, .f32⟩
  | .hbm, ⟨29, _⟩ => ⟨S512, .f32⟩
  | .hbm, ⟨30, _⟩ => ⟨S512x1, .f32⟩
  | .hbm, ⟨31, _⟩ => ⟨S1x8, .f32⟩
  | .hbm, ⟨32, _⟩ => ⟨S16x8, .f32⟩
  | .hbm, ⟨33, _⟩ => ⟨S128, .f32⟩
  | .hbm, ⟨34, _⟩ => ⟨S128x1, .f32⟩
  | .hbm, ⟨35, _⟩ => ⟨S4096x16x128, .f32⟩
  | .hbm, ⟨36, _⟩ => ⟨S8x512x16x128, .f32⟩
  | .local _ .vmem, ⟨0, _⟩ => ⟨S512x256, .f32⟩
  | .local _ .vmem, ⟨1, _⟩ => ⟨S512x256, .f32⟩
  | .local _ .vmem, ⟨2, _⟩ => ⟨S512x128, .bf16⟩
  | .local _ .vmem, ⟨3, _⟩ => ⟨S512x1, .f32⟩
  | .local _ .vmem, ⟨4, _⟩ => ⟨S128x512, .bf16⟩
  | .local _ .vmem, ⟨5, _⟩ => ⟨S128x1, .f32⟩
  | .local _ .vmem, ⟨6, _⟩ => ⟨S64x16x128, .f32⟩
  | .local _ .vmem, ⟨7, _⟩ => ⟨S64x16x128, .f32⟩
  | _, _ => ⟨S8x512x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x512x16x128_S32768x256 : S8x512x16x128.ShapeCasts S32768x256
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S32x8_S1x32x1x8_1_3 : S32x8.BroadcastsInDim S1x32x1x8 (![1, 3] : Fin 2 → Fin S1x32x1x8.rank)
  bcast_S16x1x16x1_S16x32x16x8_0_1_2_3 : S16x1x16x1.BroadcastsInDim S16x32x16x8 (![0, 1, 2, 3] : Fin 4 → Fin S16x32x16x8.rank)
  bcast_S1x32x1x8_S16x32x16x8_0_1_2_3 : S1x32x1x8.BroadcastsInDim S16x32x16x8 (![0, 1, 2, 3] : Fin 4 → Fin S16x32x16x8.rank)
  shapeCasts_S16x32x16x8_S512x128 : S16x32x16x8.ShapeCasts S512x128
  bitsLt_bf16_f32 : FTy.bits .bf16 < FTy.bits .f32
  bcast_S8x32_S1x8x1x32_1_3 : S8x32.BroadcastsInDim S1x8x1x32 (![1, 3] : Fin 2 → Fin S1x8x1x32.rank)
  bcast_S16x1x16x1_S16x8x16x32_0_1_2_3 : S16x1x16x1.BroadcastsInDim S16x8x16x32 (![0, 1, 2, 3] : Fin 4 → Fin S16x8x16x32.rank)
  bcast_S1x8x1x32_S16x8x16x32_0_1_2_3 : S1x8x1x32.BroadcastsInDim S16x8x16x32 (![0, 1, 2, 3] : Fin 4 → Fin S16x8x16x32.rank)
  shapeCasts_S16x8x16x32_S128x512 : S16x8x16x32.ShapeCasts S128x512
  shapeCasts_S32_S1x32 : S32.ShapeCasts S1x32
  bcast_S1x32_S16x32_0_1 : S1x32.BroadcastsInDim S16x32 (![0, 1] : Fin 2 → Fin S16x32.rank)
  shapeCasts_S16x32_S512 : S16x32.ShapeCasts S512
  shapeCasts_S512_S512x1 : S512.ShapeCasts S512x1
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  shapeCasts_S128_S128x1 : S128.ShapeCasts S128x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S512x256_S128x256_0_0 : ∀ a, (![0, 0] : Fin 2 → Nat) a + S128x256.size a ≤ S512x256.size a
  h_S128x256 : 0 < S128x256.numel
  shapeCasts_S128x256_S128x256 : S128x256.ShapeCasts S128x256
  broadcasts_S512x1_S512x256 : S512x1.Broadcasts S512x256
  broadcasts_S128x1_S128x256 : S128x1.Broadcasts S128x256
  shapeCasts_S128x256_S16x8x2x128 : S128x256.ShapeCasts S16x8x2x128
  transposes_S16x8x2x128_p0_2_1_3_S16x2x8x128 : S16x8x2x128.Transposes [0, 2, 1, 3] S16x2x8x128
  shapeCasts_S16x2x8x128_S16x16x128 : S16x2x8x128.ShapeCasts S16x16x128
  inb_S64x16x128_S16x16x128_0_0_0 : ∀ a, (![0, 0, 0] : Fin 3 → Nat) a + S16x16x128.size a ≤ S64x16x128.size a
  h_S16x16x128 : 0 < S16x16x128.numel
  inb_S512x256_S128x256_128_0 : ∀ a, (![128, 0] : Fin 2 → Nat) a + S128x256.size a ≤ S512x256.size a
  inb_S64x16x128_S16x16x128_16_0_0 : ∀ a, (![16, 0, 0] : Fin 3 → Nat) a + S16x16x128.size a ≤ S64x16x128.size a
  inb_S512x256_S128x256_256_0 : ∀ a, (![256, 0] : Fin 2 → Nat) a + S128x256.size a ≤ S512x256.size a
  inb_S64x16x128_S16x16x128_32_0_0 : ∀ a, (![32, 0, 0] : Fin 3 → Nat) a + S16x16x128.size a ≤ S64x16x128.size a
  inb_S512x256_S128x256_384_0 : ∀ a, (![384, 0] : Fin 2 → Nat) a + S128x256.size a ≤ S512x256.size a
  inb_S64x16x128_S16x16x128_48_0_0 : ∀ a, (![48, 0, 0] : Fin 3 → Nat) a + S16x16x128.size a ≤ S64x16x128.size a
  shapeCasts_S4096x16x128_S8x512x16x128 : S4096x16x128.ShapeCasts S8x512x16x128
  dot_S512x128_S128x256_S512x256_1_0_0_1_n_n_wf : DotDims.WF S512x128 S128x256 S512x256 [1] [0] [0] [1] [] []
  dot_S128x512_S512x256_S128x256_1_0_0_1_n_n_wf : DotDims.WF S128x512 S512x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .f32 = 32 ∨ (Rect.block (s := S32768x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x16x128.size a ≤ S4096x16x128.size a
  hwx0_5 : ∀ i : grid0.Coords, EltTy.bits .f32 = 32 ∨ (Rect.block (s := S4096x16x128) S64x16x128.size (cc0_transform_5 i) (hinb0_5 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S64x16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x16x128 : Shape := ⟨4, ![8, 512, 16, 128]⟩
abbrev S32x8 : Shape := ⟨2, ![32, 8]⟩
abbrev S32 : Shape := ⟨1, ![32]⟩
abbrev S8x32 : Shape := ⟨2, ![8, 32]⟩
abbrev S8 : Shape := ⟨1, ![8]⟩
abbrev S2x2 : Shape := ⟨2, ![2, 2]⟩
abbrev S_ : Shape := ⟨0, ![]⟩
abbrev S1x32x8x1 : Shape := ⟨4, ![1, 32, 8, 1]⟩
abbrev S2x1x1x2 : Shape := ⟨4, ![2, 1, 1, 2]⟩
abbrev S2x32x8x2 : Shape := ⟨4, ![2, 32, 8, 2]⟩
abbrev S64x16 : Shape := ⟨2, ![64, 16]⟩
abbrev S1x32 : Shape := ⟨2, ![1, 32]⟩
abbrev S2x32 : Shape := ⟨2, ![2, 32]⟩
abbrev S64 : Shape := ⟨1, ![64]⟩
abbrev S2x1x2x1 : Shape := ⟨4, ![2, 1, 2, 1]⟩
abbrev S1x8x1x32 : Shape := ⟨4, ![1, 8, 1, 32]⟩
abbrev S2x8x2x32 : Shape := ⟨4, ![2, 8, 2, 32]⟩
abbrev S16x64 : Shape := ⟨2, ![16, 64]⟩
abbrev S1x8 : Shape := ⟨2, ![1, 8]⟩
abbrev S2x8 : Shape := ⟨2, ![2, 8]⟩
abbrev S16 : Shape := ⟨1, ![16]⟩
abbrev S64x1 : Shape := ⟨2, ![64, 1]⟩
abbrev S16x1 : Shape := ⟨2, ![16, 1]⟩
abbrev S4096x16x128 : Shape := ⟨3, ![4096, 16, 128]⟩
abbrev S16x16x128 : Shape := ⟨3, ![16, 16, 128]⟩
abbrev S1x16x128 : Shape := ⟨3, ![1, 16, 128]⟩
abbrev S16x128 : Shape := ⟨2, ![16, 128]⟩
abbrev S64x128 : Shape := ⟨2, ![64, 128]⟩

abbrev nBuf : Space → Nat
  | .hbm => 35
  | .vmem => 8
  | .smem => 0
  | _ => 0

abbrev bufTy : (tb : Table) → Fin (tcTables nBuf tb) → BufTy
  | .hbm, ⟨0, _⟩ => ⟨S8x512x16x128, .f32⟩
  | .hbm, ⟨1, _⟩ => ⟨S32x8, .f32⟩
  | .hbm, ⟨2, _⟩ => ⟨S32, .f32⟩
  | .hbm, ⟨3, _⟩ => ⟨S8x32, .f32⟩
  | .hbm, ⟨4, _⟩ => ⟨S8, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S1x32x8x1, .f32⟩
  | .hbm, ⟨13, _⟩ => ⟨S2x1x1x2, .f32⟩
  | .hbm, ⟨14, _⟩ => ⟨S2x32x8x2, .f32⟩
  | .hbm, ⟨15, _⟩ => ⟨S2x32x8x2, .f32⟩
  | .hbm, ⟨16, _⟩ => ⟨S2x32x8x2, .f32⟩
  | .hbm, ⟨17, _⟩ => ⟨S64x16, .f32⟩
  | .hbm, ⟨18, _⟩ => ⟨S1x32, .f32⟩
  | .hbm, ⟨19, _⟩ => ⟨S2x32, .f32⟩
  | .hbm, ⟨20, _⟩ => ⟨S64, .f32⟩
  | .hbm, ⟨21, _⟩ => ⟨S2x1x2x1, .f32⟩
  | .hbm, ⟨22, _⟩ => ⟨S1x8x1x32, .f32⟩
  | .hbm, ⟨23, _⟩ => ⟨S2x8x2x32, .f32⟩
  | .hbm, ⟨24, _⟩ => ⟨S2x8x2x32, .f32⟩
  | .hbm, ⟨25, _⟩ => ⟨S2x8x2x32, .f32⟩
  | .hbm, ⟨26, _⟩ => ⟨S16x64, .f32⟩
  | .hbm, ⟨27, _⟩ => ⟨S1x8, .f32⟩
  | .hbm, ⟨28, _⟩ => ⟨S2x8, .f32⟩
  | .hbm, ⟨29, _⟩ => ⟨S16, .f32⟩
  | .hbm, ⟨30, _⟩ => ⟨S64x1, .f32⟩
  | .hbm, ⟨31, _⟩ => ⟨S16x1, .f32⟩
  | .hbm, ⟨32, _⟩ => ⟨S4096x16x128, .f32⟩
  | .hbm, ⟨33, _⟩ => ⟨S4096x16x128, .f32⟩
  | .hbm, ⟨34, _⟩ => ⟨S8x512x16x128, .f32⟩
  | .local _ .vmem, ⟨0, _⟩ => ⟨S16x16x128, .f32⟩
  | .local _ .vmem, ⟨1, _⟩ => ⟨S16x16x128, .f32⟩
  | .local _ .vmem, ⟨2, _⟩ => ⟨S64x16, .f32⟩
  | .local _ .vmem, ⟨3, _⟩ => ⟨S64x1, .f32⟩
  | .local _ .vmem, ⟨4, _⟩ => ⟨S16x64, .f32⟩
  | .local _ .vmem, ⟨5, _⟩ => ⟨S16x1, .f32⟩
  | .local _ .vmem, ⟨6, _⟩ => ⟨S16x16x128, .f32⟩
  | .local _ .vmem, ⟨7, _⟩ => ⟨S16x16x128, .f32⟩
  | _, _ => ⟨S8x512x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![256, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S2x2 : S_.BroadcastsInDim S2x2 (![] : Fin 0 → Fin S2x2.rank)
  bcast_S32x8_S1x32x8x1_1_2 : S32x8.BroadcastsInDim S1x32x8x1 (![1, 2] : Fin 2 → Fin S1x32x8x1.rank)
  bcast_S2x2_S2x1x1x2_0_3 : S2x2.BroadcastsInDim S2x1x1x2 (![0, 3] : Fin 2 → Fin S2x1x1x2.rank)
  bcast_S1x32x8x1_S2x32x8x2_0_1_2_3 : S1x32x8x1.BroadcastsInDim S2x32x8x2 (![0, 1, 2, 3] : Fin 4 → Fin S2x32x8x2.rank)
  bcast_S2x1x1x2_S2x32x8x2_0_1_2_3 : S2x1x1x2.BroadcastsInDim S2x32x8x2 (![0, 1, 2, 3] : Fin 4 → Fin S2x32x8x2.rank)
  shapeCasts_S2x32x8x2_S64x16 : S2x32x8x2.ShapeCasts S64x16
  shapeCasts_S32_S1x32 : S32.ShapeCasts S1x32
  bcast_S1x32_S2x32_0_1 : S1x32.BroadcastsInDim S2x32 (![0, 1] : Fin 2 → Fin S2x32.rank)
  shapeCasts_S2x32_S64 : S2x32.ShapeCasts S64
  bcast_S2x2_S2x1x2x1_0_2 : S2x2.BroadcastsInDim S2x1x2x1 (![0, 2] : Fin 2 → Fin S2x1x2x1.rank)
  bcast_S8x32_S1x8x1x32_1_3 : S8x32.BroadcastsInDim S1x8x1x32 (![1, 3] : Fin 2 → Fin S1x8x1x32.rank)
  bcast_S2x1x2x1_S2x8x2x32_0_1_2_3 : S2x1x2x1.BroadcastsInDim S2x8x2x32 (![0, 1, 2, 3] : Fin 4 → Fin S2x8x2x32.rank)
  bcast_S1x8x1x32_S2x8x2x32_0_1_2_3 : S1x8x1x32.BroadcastsInDim S2x8x2x32 (![0, 1, 2, 3] : Fin 4 → Fin S2x8x2x32.rank)
  shapeCasts_S2x8x2x32_S16x64 : S2x8x2x32.ShapeCasts S16x64
  shapeCasts_S8_S1x8 : S8.ShapeCasts S1x8
  bcast_S1x8_S2x8_0_1 : S1x8.BroadcastsInDim S2x8 (![0, 1] : Fin 2 → Fin S2x8.rank)
  shapeCasts_S2x8_S16 : S2x8.ShapeCasts S16
  shapeCasts_S64_S64x1 : S64.ShapeCasts S64x1
  shapeCasts_S16_S16x1 : S16.ShapeCasts S16x1
  shapeCasts_S8x512x16x128_S4096x16x128 : S8x512x16x128.ShapeCasts S4096x16x128
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x16x128_S1x16x128_0_0_0 : ∀ a, (![0, 0, 0] : Fin 3 → Nat) a + S1x16x128.size a ≤ S16x16x128.size a
  h_S1x16x128 : 0 < S1x16x128.numel
  shapeCasts_S1x16x128_S16x128 : S1x16x128.ShapeCasts S16x128
  broadcasts_S64x1_S64x128 : S64x1.Broadcasts S64x128
  broadcasts_S16x1_S16x128 : S16x1.Broadcasts S16x128
  shapeCasts_S16x128_S1x16x128 : S16x128.ShapeCasts S1x16x128
  inb_S16x16x128_S1x16x128_1_0_0 : ∀ a, (![1, 0, 0] : Fin 3 → Nat) a + S1x16x128.size a ≤ S16x16x128.size a
  inb_S16x16x128_S1x16x128_2_0_0 : ∀ a, (![2, 0, 0] : Fin 3 → Nat) a + S1x16x128.size a ≤ S16x16x128.size a
  inb_S16x16x128_S1x16x128_3_0_0 : ∀ a, (![3, 0, 0] : Fin 3 → Nat) a + S1x16x128.size a ≤ S16x16x128.size a
  inb_S16x16x128_S1x16x128_4_0_0 : ∀ a, (![4, 0, 0] : Fin 3 → Nat) a + S1x16x128.size a ≤ S16x16x128.size a
  inb_S16x16x128_S1x16x128_5_0_0 : ∀ a, (![5, 0, 0] : Fin 3 → Nat) a + S1x16x128.size a ≤ S16x16x128.size a
  inb_S16x16x128_S1x16x128_6_0_0 : ∀ a, (![6, 0, 0] : Fin 3 → Nat) a + S1x16x128.size a ≤ S16x16x128.size a
  inb_S16x16x128_S1x16x128_7_0_0 : ∀ a, (![7, 0, 0] : Fin 3 → Nat) a + S1x16x128.size a ≤ S16x16x128.size a
  inb_S16x16x128_S1x16x128_8_0_0 : ∀ a, (![8, 0, 0] : Fin 3 → Nat) a + S1x16x128.size a ≤ S16x16x128.size a
  inb_S16x16x128_S1x16x128_9_0_0 : ∀ a, (![9, 0, 0] : Fin 3 → Nat) a + S1x16x128.size a ≤ S16x16x128.size a
  inb_S16x16x128_S1x16x128_10_0_0 : ∀ a, (![10, 0, 0] : Fin 3 → Nat) a + S1x16x128.size a ≤ S16x16x128.size a
  inb_S16x16x128_S1x16x128_11_0_0 : ∀ a, (![11, 0, 0] : Fin 3 → Nat) a + S1x16x128.size a ≤ S16x16x128.size a
  inb_S16x16x128_S1x16x128_12_0_0 : ∀ a, (![12, 0, 0] : Fin 3 → Nat) a + S1x16x128.size a ≤ S16x16x128.size a
  inb_S16x16x128_S1x16x128_13_0_0 : ∀ a, (![13, 0, 0] : Fin 3 → Nat) a + S1x16x128.size a ≤ S16x16x128.size a
  inb_S16x16x128_S1x16x128_14_0_0 : ∀ a, (![14, 0, 0] : Fin 3 → Nat) a + S1x16x128.size a ≤ S16x16x128.size a
  inb_S16x16x128_S1x16x128_15_0_0 : ∀ a, (![15, 0, 0] : Fin 3 → Nat) a + S1x16x128.size a ≤ S16x16x128.size a
  shapeCasts_S4096x16x128_S8x512x16x128 : S4096x16x128.ShapeCasts S8x512x16x128
  dot_S64x16_S16x128_S64x128_1_0_0_1_n_n_wf : DotDims.WF S64x16 S16x128 S64x128 [1] [0] [0] [1] [] []
  dot_S16x64_S64x128_S16x128_1_0_0_1_n_n_wf : DotDims.WF S16x64 S64x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x128.size a ≤ S4096x16x128.size a
  hwx0_0 : ∀ i : grid0.Coords, EltTy.bits .f32 = 32 ∨ (Rect.block (s := S4096x16x128) S16x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x16x128.size a ≤ S4096x16x128.size a
  hwx0_5 : ∀ i : grid0.Coords, EltTy.bits .f32 = 32 ∨ (Rect.block (s := S4096x16x128) S16x16x128.size (cc0_transform_5 i) (hinb0_5 i)).WholeWords (EltTy.packing .f32)

variable [Facts₀]

def dot_S64x16_S16x128_S64x128_1_0_0_1_n_n : DotDims S64x16 S16x128 S64x128 where
  lhsContracting := [1]
  rhsContracting := [0]
  lhsNonContracting := [0]
  rhsNonContracting := [1]
  lhsBatch := []
  rhsBatch := []
  wf := dot_S64x16_S16x128_S64x128_1_0_0_1_n_n_wf
def dot_S16x64_S64x128_S16x128_1_0_0_1_n_n : DotDims S16x64 S64x128 S16x128 where
  lhsContracting := [1]
  rhsContracting := [0]
  lhsNonContracting := [0]
  rhsNonContracting := [1]
  lhsBatch := []
  rhsBatch := []
  wf := dot_S16x64_S64x128_S16x128_1_0_0_1_n_n_wf

abbrev win0_0 : Pipeline.Window sig grid0 :=
  Pipeline.Window.ofSpec (Memref.whole main_v26) S16x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S16x16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibSumBlock.lean ====
/-
  A sum over a folded axis whose terms vanish off one block.

  When an index set splits as (block, position) and every term off block a is zero, the sum over the whole set is the sum
  over the positions of block a. This is what is left of a contraction against a block-diagonal array — identity ⊗ w, built
  with a 0/1 identity — once the zero products are dropped. It holds in any commutative additive monoid: no
  cancellation and no distributivity are used, so it applies to the extended reals, infinite values included.
-/
import Idealize.ShloMosaic.PureOps.Ideal

namespace Cert.Lib

/-- For e : ι ≃ α × β and terms f with f d = 0 whenever the block (e d).1 is not a: Σ_d f d = Σ_j f (e⁻¹ (a, j)). -/
theorem sum_block {ι α β M : Type} [Fintype ι] [Fintype α] [Fintype β] [DecidableEq α] [AddCommMonoid M]
    (e : ι ≃ α × β) (a : α) (f : ι → M) (hf : ∀ d, (e d).1 ≠ a → f d = 0) :
    ∑ d, f d = ∑ j, f (e.symm (a, j)) := by
  rw [← Equiv.sum_comp e.symm f, Fintype.sum_prod_type]
  refine (Finset.sum_eq_single a (fun a' _ ha' => ?_) (fun h => absurd (Finset.mem_univ a) h))
  refine Finset.sum_eq_zero fun j _ => hf _ ?_
  rw [Equiv.apply_symm_apply]; exact ha'

end Cert.Lib
-- ==== Proof.Spec.lean ====
/-
  The function both programs compute, over the extended reals.

  The input is read as 4096 rows r of 16 channels by 128 lanes; channel 2·j + i holds feature j of group i. Every row and
  group goes through the same two-layer perceptron: the hidden value h of row r, group i, lane q is
  Σ_j w1 (h, j) · x (r, 2·j + i, q) + b1 h, the tanh form of GELU is applied to it, and output k is
  Σ_h w2 (k, h) · gelu (hidden h) + b2 k, stored at channel 8·i + k. Both programs build block-diagonal weights out
  of w1 and w2 with a 0/1 identity and contract over the long folded axis; the off-diagonal products vanish because
  0 · y = 0 and 1 · y = y hold for EVERY extended real, so no finiteness is needed to collapse the long sums.
-/
import Idealize.ShloMosaic.PureOps.Ideal
import Idealize.ShloMosaic.Lib.ValueIdx
import proofs.«158709_g2000504113187169_pallasbulk_347_2_alg».proof.Proof.LibSumBlock

noncomputable section

namespace Cert.Spec

open Idealize.ShloMosaic Idealize.ShloMosaic.ValueIdx

abbrev SArg : Shape := ⟨4, ![8, 512, 16, 128]⟩
abbrev SRows : Shape := ⟨3, ![4096, 16, 128]⟩
abbrev SW1 : Shape := ⟨2, ![32, 8]⟩
abbrev SB1 : Shape := ⟨1, ![32]⟩
abbrev SW2 : Shape := ⟨2, ![8, 32]⟩
abbrev SB2 : Shape := ⟨1, ![8]⟩

/-- The tanh form of GELU at one extended real, in the order both programs multiply and add:
    (½ · h) · (1 + tanh (c · (h + a · ((h · h) · h)))). -/
def gelu (h : Ideal .f32) : Ideal .f32 :=
  ((Scalar.ofBits .f32 0x3F000000#32 : Ideal .f32) * h)
    * ((Scalar.ofBits .f32 0x3F800000#32 : Ideal .f32)
        + FloatOps.tanh ((Scalar.ofBits .f32 0x3F4C422A#32 : Ideal .f32)
            * (h + (Scalar.ofBits .f32 0x3D372713#32 : Ideal .f32) * ((h * h) * h))))

/-- The same on a whole array, spelt with the vector operations the programs print. -/
def geluV {s : Shape} (v : FVec Ideal s .f32) : FVec Ideal s .f32 :=
  mulf (mulf (broadcast s (Scalar.ofBits .f32 0x3F000000#32)) v)
    (addf (broadcast s (Scalar.ofBits .f32 0x3F800000#32))
      (tanh (mulf (broadcast s (Scalar.ofBits .f32 0x3F4C422A#32))
        (addf v (mulf (broadcast s (Scalar.ofBits .f32 0x3D372713#32)) (mulf (mulf v v) v))))))

theorem geluV_apply {s : Shape} (v : FVec Ideal s .f32) (i : s.Idx) : geluV v i = gelu (v i) := rfl

/-- Channel 2·j + i of the input: feature j of group i. -/
def inCh (j : Fin 8) (i : Fin 2) : Fin 16 := ⟨2 * j.val + i.val, by omega⟩
/-- Channel 8·i + k of the output: output k of group i. -/
def outCh (i : Fin 2) (k : Fin 8) : Fin 16 := ⟨8 * i.val + k.val, by omega⟩

/-- The hidden value h of row r, group i, lane q. -/
def hidden (x : SRows.Idx → EReal) (w1 : SW1.Idx → EReal) (b1 : SB1.Idx → EReal)
    (r : Fin 4096) (i : Fin 2) (q : Fin 128) (h : Fin 32) : EReal :=
  (∑ j : Fin 8, w1 (ix2 h j) * x (ix3 r (inCh j i) q)) + b1 (ix1 h)

/-- Output k of row r, group i, lane q. -/
def out (x : SRows.Idx → EReal) (w1 : SW1.Idx → EReal) (b1 : SB1.Idx → EReal) (w2 : SW2.Idx → EReal) (b2 : SB2.Idx → EReal)
    (r : Fin 4096) (i : Fin 2) (k : Fin 8) (q : Fin 128) : EReal :=
  (∑ h : Fin 32, w2 (ix2 k h) * gelu (hidden x w1 b1 r i q h)) + b2 (ix1 k)

/-- The whole result over the rows: entry (r, 8·i + k, q) is output k of group i. -/
def rows (x : SRows.Idx → EReal) (w1 : SW1.Idx → EReal) (b1 : SB1.Idx → EReal) (w2 : SW2.Idx → EReal) (b2 : SB2.Idx → EReal) :
    SRows.Idx → EReal := fun y =>
  out x w1 b1 w2 b2 (y 0) ⟨(y 1).val / 8, by have : (y 1).val < 16 := (y 1).isLt; omega⟩ ⟨(y 1).val % 8, Nat.mod_lt _ (by omega)⟩ (y 2)

theorem rows_apply (x : SRows.Idx → EReal) (w1 : SW1.Idx → EReal) (b1 : SB1.Idx → EReal) (w2 : SW2.Idx → EReal) (b2 : SB2.Idx → EReal)
    (r : Fin 4096) (i : Fin 2) (k : Fin 8) (q : Fin 128) :
    rows x w1 b1 w2 b2 (ix3 r (outCh i k) q) = out x w1 b1 w2 b2 r i k q := by
  unfold rows
  have hi : (⟨(outCh i k).val / 8, by have := (outCh i k).isLt; omega⟩ : Fin 2) = i := Fin.ext (by show (8 * i.val + k.val) / 8 = i.val; omega)
  have hk : (⟨(outCh i k).val % 8, Nat.mod_lt _ (by omega)⟩ : Fin 8) = k := Fin.ext (by show (8 * i.val + k.val) % 8 = k.val; omega)
  show out x w1 b1 w2 b2 r ⟨(outCh i k).val / 8, _⟩ ⟨(outCh i k).val % 8, _⟩ q = _
  rw [hi, hk]

/-- The result array as a function of the five argument arrays: the rows of the input re-read as [4096, 16, 128], the
    perceptron on every row, and the rows re-read as [8, 512, 16, 128] (both re-readings keep the row-major position). -/
def result (a0 : SArg.Idx → EReal) (a1 : SW1.Idx → EReal) (a2 : SB1.Idx → EReal) (a3 : SW2.Idx → EReal) (a4 : SB2.Idx → EReal) :
    SArg.Idx → EReal :=
  shapeCast SArg (rows (shapeCast SRows a0 (by decide)) a1 a2 a3 a4) (by decide)

/-! ## A sum over a folded axis whose terms vanish off one block -/

/-- A sum over an index that splits as (block, position) and whose terms vanish off block a is the sum over the positions
    of block a. Holds in any commutative additive monoid: no cancellation, no distributivity. -/
theorem sum_block {ι α β M : Type} [Fintype ι] [Fintype α] [Fintype β] [DecidableEq α] [AddCommMonoid M]
    (e : ι ≃ α × β) (a : α) (f : ι → M) (hf : ∀ d, (e d).1 ≠ a → f d = 0) :
    ∑ d, f d = ∑ j, f (e.symm (a, j)) := Cert.Lib.sum_block e a f hf

end Cert.Spec

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KerChunk.lean ====
/-
  One store of the kernel's body: sixteen rows at a time.

  The body cuts its 64-row block into four chunks of 16 rows. A chunk is read as a [128, 256] array X whose row 8·a + j is
  feature j of row a and whose lane 128·i + q is lane q of group i. With the folded weights W1 [512, 128], W2 [128, 512]
  and the bias columns B1, B2, the chunk's result before re-laying is
    o (p, l) = Σ_c W2 (p, c) · gelu (Σ_d W1 (c, d) · X (d, l) + B1 c) + B2 p,
  and the stored [16, 16, 128] piece puts o (8·a + k, 128·i + q) at (a, 8·i + k, q): the row-major re-readings
  [128,256] → [16,8,2,128] and [16,2,8,128] → [16,16,128] around the swap of the two middle axes.
  The changes of float format are the identity on extended reals. All four stores carry this one function of their loads.
-/
import proofs.«158709_g2000504113187169_pallasbulk_347_2_alg».proof.Proof.Gen.KernelIdeal.Frame
import proofs.«158709_g2000504113187169_pallasbulk_347_2_alg».proof.Proof.Spec
import proofs.«158709_g2000504113187169_pallasbulk_347_2_alg».proof.Proof.LibPlainMatmul
import Idealize.ShloMosaic.Lib.ValueIdx
import Idealize.ShloMosaic.Lib.Pipeline.Value
import Idealize.ShloMosaic.PureOps.Ideal.Laws

set_option maxRecDepth 16384

noncomputable section

namespace Cert.KernelIdeal.KerValue

open Idealize.ShloMosaic Idealize.ShloMosaic.ValueIdx Cert.KernelIdeal Cert.KernelIdeal.Gen

/-- The first layer on a chunk: W1 · X + B1 down every lane. -/
def layer1 (W1 : FVec Ideal S512x128 .bf16) (B1 : FVec Ideal S512x1 .f32) (X : FVec Ideal S128x256 .f32) : FVec Ideal S512x256 .f32 :=
  addf (matmul dot_S512x128_S128x256_S512x256_1_0_0_1_n_n none W1 (truncf .bf16 X bitsLt_bf16_f32) (constant S512x256 .f32 0x00000000#32))
    (broadcastTo S512x256 B1 broadcasts_S512x1_S512x256)

/-- The second layer: W2 · G + B2 down every lane. -/
def layer2 (W2 : FVec Ideal S128x512 .bf16) (B2 : FVec Ideal S128x1 .f32) (G : FVec Ideal S512x256 .f32) : FVec Ideal S128x256 .f32 :=
  addf (matmul dot_S128x512_S512x256_S128x256_1_0_0_1_n_n none W2 (truncf .bf16 G bitsLt_bf16_f32) (constant S128x256 .f32 0x00000000#32))
    (broadcastTo S128x256 B2 broadcasts_S128x1_S128x256)

/-- Rows (a, k) by lanes (i, q) re-laid as row a, channel (i, k), lane q. -/
def relay (o : FVec Ideal S128x256 .f32) : FVec Ideal S16x16x128 .f32 :=
  shapeCast S16x16x128 (transpose S16x2x8x128 [0, 2, 1, 3] (shapeCast S16x8x2x128 o shapeCasts_S128x256_S16x8x2x128)
    transposes_S16x8x2x128_p0_2_1_3_S16x2x8x128) shapeCasts_S16x2x8x128_S16x16x128

/-- What one store of the body holds, from the weights and the 16 rows it loaded. -/
def chunk (W1 : FVec Ideal S512x128 .bf16) (B1 : FVec Ideal S512x1 .f32) (W2 : FVec Ideal S128x512 .bf16) (B2 : FVec Ideal S128x1 .f32)
    (X : FVec Ideal S128x256 .f32) : FVec Ideal S16x16x128 .f32 :=
  relay (layer2 W2 B2 (Cert.Spec.geluV (layer1 W1 B1 X)))

/-- The first store's payload is the chunk function (same-shape casts are the identity). -/
theorem pay7_eq (W1 : Vec Ideal S512x128 .bf16) (B1 : Vec Ideal S512x1 .f32) (W2 : Vec Ideal S128x512 .bf16) (B2 : Vec Ideal S128x1 .f32)
    (X : Vec Ideal S128x256 .f32) : k0_pay7 (F := Ideal) W1 B1 W2 B2 X = chunk W1 B1 W2 B2 X := by
  unfold k0_pay7 k0_pay3 k0_pay4 k0_pay5 k0_pay6 chunk relay layer2 layer1 Cert.Spec.geluV
  simp only [shapeCast_self]

/-- The second store's payload chain is the first store's function of its own loads. -/
theorem pay9_eq (W1 : Vec Ideal S512x128 .bf16) (B1 : Vec Ideal S512x1 .f32) (W2 : Vec Ideal S128x512 .bf16) (B2 : Vec Ideal S128x1 .f32)
    (X : Vec Ideal S128x256 .f32) :
    k0_pay9 (F := Ideal) (k0_pay3 W1) (k0_pay4 B1) (k0_pay5 W2) (k0_pay6 B2) (k0_pay8 X) = k0_pay7 W1 B1 W2 B2 X := rfl

/-- The third store's. -/
theorem pay1_eq (W1 : Vec Ideal S512x128 .bf16) (B1 : Vec Ideal S512x1 .f32) (W2 : Vec Ideal S128x512 .bf16) (B2 : Vec Ideal S128x1 .f32)
    (X : Vec Ideal S128x256 .f32) :
    k0_pay1 (F := Ideal) (k0_pay5 W2) (k0_pay6 B2) (k0_pay11 (k0_pay3 W1) (k0_pay4 B1) X) (k0_pay12 (k0_pay3 W1) (k0_pay4 B1) X)
      = k0_pay7 W1 B1 W2 B2 X := rfl

/-- The fourth store's. -/
theorem pay2_eq (W1 : Vec Ideal S512x128 .bf16) (B1 : Vec Ideal S512x1 .f32) (W2 : Vec Ideal S128x512 .bf16) (B2 : Vec Ideal S128x1 .f32)
    (X : Vec Ideal S128x256 .f32) :
    k0_pay2 (F := Ideal) (k0_pay3 W1) (k0_pay4 B1) (k0_pay5 W2) (k0_pay6 B2) X = k0_pay7 W1 B1 W2 B2 X := rfl

end Cert.KernelIdeal.KerValue

end
-- ==== Proof.KerBlock.lean ====
/-
  The body's output buffer as one function of its index.

  The body stores four pieces of 16 rows into its [64, 16, 128] buffer; piece s holds the chunk function of input rows
  128·s … 128·s + 127 of the [512, 256] input block. So at index (16·s + a, ch, q) the buffer holds entry (a, ch, q) of the
  chunk of those rows: the pieces tile the buffer and each is the restriction of that one function.
-/
import proofs.«158709_g2000504113187169_pallasbulk_347_2_alg».proof.Proof.KerChunk

set_option maxRecDepth 16384

noncomputable section

namespace Cert.KernelIdeal.KerValue

open Idealize.ShloMosaic Idealize.ShloMosaic.ValueIdx Cert.KernelIdeal Cert.KernelIdeal.Gen

theorem zero2 : (![0, 0] : Fin 2 → Nat) = fun _ => 0 := funext fun a => by fin_cases a <;> rfl

/-- The 128 rows of the [512, 256] input block that chunk s loads. -/
def rowsOf (x0 : Vec Ideal S512x256 .f32) (s : Fin 4) : Vec Ideal S128x256 .f32 :=
  fun d => x0 (ix2 ⟨128 * s.val + (d 0).val, by have : (d 0).val < 128 := (d 0).isLt; omega⟩ (d 1))

/-- The buffer's contents at (16·s + a, ch, q): entry (a, ch, q) of the chunk of rows 128·s …. -/
def blockFn (x0 : Vec Ideal S512x256 .f32) (x1 : Vec Ideal S512x128 .bf16) (x2 : Vec Ideal S512x1 .f32)
    (x3 : Vec Ideal S128x512 .bf16) (x4 : Vec Ideal S128x1 .f32) : Vec Ideal S64x16x128 .f32 := fun y =>
  chunk x1 x2 x3 x4 (rowsOf x0 ⟨(y 0).val / 16, by have : (y 0).val < 64 := (y 0).isLt; omega⟩)
    (ix3 (⟨(y 0).val % 16, Nat.mod_lt _ (by omega)⟩ : Fin 16) (y 1) (y 2))

theorem blockFn_at (x0 : Vec Ideal S512x256 .f32) (x1 : Vec Ideal S512x128 .bf16) (x2 : Vec Ideal S512x1 .f32)
    (x3 : Vec Ideal S128x512 .bf16) (x4 : Vec Ideal S128x1 .f32) (s : Fin 4) (x : S16x16x128.Idx) (y : S64x16x128.Idx)
    (h0 : (y 0).val = 16 * s.val + (x 0).val) (h1 : (y 1).val = (x 1).val) (h2 : (y 2).val = (x 2).val) :
    blockFn x0 x1 x2 x3 x4 y = chunk x1 x2 x3 x4 (rowsOf x0 s) x := by
  unfold blockFn
  have hx0 : (x 0).val < 16 := (x 0).isLt
  have es : (⟨(y 0).val / 16, by have : (y 0).val < 64 := (y 0).isLt; omega⟩ : Fin 4) = s :=
    Fin.ext (by show (y 0).val / 16 = s.val; omega)
  have e0 : (⟨(y 0).val % 16, Nat.mod_lt _ (by omega)⟩ : Fin 16) = x 0 := Fin.ext (by show (y 0).val % 16 = (x 0).val; omega)
  have e1 : (y 1 : Fin 16) = x 1 := Fin.ext h1
  have e2 : (y 2 : Fin 128) = x 2 := Fin.ext h2
  rw [es, e0, e1, e2]
  exact congrArg (chunk x1 x2 x3 x4 (rowsOf x0 s)) (eq_ix3 x).symm

theorem ld_rows (x0 : Vec Ideal S512x256 .f32) (s : Fin 4) (off : Fin 2 → Nat) (inb) (h0 : off 0 = 128 * s.val) (h1 : off 1 = 0) :
    View.ld (Val := Elt Ideal) x0 (Rect.unit (s := S512x256) off S128x256.size inb) = rowsOf x0 s := by
  funext d
  show x0 ((Rect.unit (s := S512x256) off S128x256.size inb).idx d) = x0 _
  refine congrArg x0 (funext fun a => Fin.ext ?_)
  match a with
  | ⟨0, _⟩ => show off 0 + 1 * (d 0).val = 128 * s.val + (d 0).val; omega
  | ⟨1, _⟩ => show off 1 + 1 * (d 1).val = (d 1).val; omega

section
variable (x0 : Vec Ideal S512x256 .f32) (x1 : Vec Ideal S512x128 .bf16) (x2 : Vec Ideal S512x1 .f32)
  (x3 : Vec Ideal S128x512 .bf16) (x4 : Vec Ideal S128x1 .f32)

theorem piece0 : k0_pay7 (View.ld x1 r0_0) (View.ld x2 r0_1) (View.ld x3 r0_2) (View.ld x4 r0_3) (View.ld x0 r0_4)
    = chunk x1 x2 x3 x4 (rowsOf x0 0) := by
  rw [pay7_eq]
  simp only [View.ld_unit_zero (S := S512x128) zero2, View.ld_unit_zero (S := S512x1) zero2, View.ld_unit_zero (S := S128x512) zero2,
    View.ld_unit_zero (S := S128x1) zero2]
  rw [ld_rows x0 0 _ _ rfl rfl]

theorem piece1 : k0_pay9 (k0_pay3 (View.ld x1 r0_0)) (k0_pay4 (View.ld x2 r0_1)) (k0_pay5 (View.ld x3 r0_2)) (k0_pay6 (View.ld x4 r0_3))
      (k0_pay8 (View.ld x0 r0_6)) = chunk x1 x2 x3 x4 (rowsOf x0 1) := by
  rw [pay9_eq, pay7_eq]
  simp only [View.ld_unit_zero (S := S512x128) zero2, View.ld_unit_zero (S := S512x1) zero2, View.ld_unit_zero (S := S128x512) zero2,
    View.ld_unit_zero (S := S128x1) zero2]
  rw [ld_rows x0 1 _ _ rfl rfl]

theorem piece2 : k0_pay1 (k0_pay5 (View.ld x3 r0_2)) (k0_pay6 (View.ld x4 r0_3))
      (k0_pay11 (k0_pay3 (View.ld x1 r0_0)) (k0_pay4 (View.ld x2 r0_1)) (View.ld x0 r0_8))
      (k0_pay12 (k0_pay3 (View.ld x1 r0_0)) (k0_pay4 (View.ld x2 r0_1)) (View.ld x0 r0_8)) = chunk x1 x2 x3 x4 (rowsOf x0 2) := by
  rw [pay1_eq, pay7_eq]
  simp only [View.ld_unit_zero (S := S512x128) zero2, View.ld_unit_zero (S := S512x1) zero2, View.ld_unit_zero (S := S128x512) zero2,
    View.ld_unit_zero (S := S128x1) zero2]
  rw [ld_rows x0 2 _ _ rfl rfl]

theorem piece3 : k0_pay2 (k0_pay3 (View.ld x1 r0_0)) (k0_pay4 (View.ld x2 r0_1)) (k0_pay5 (View.ld x3 r0_2)) (k0_pay6 (View.ld x4 r0_3))
      (View.ld x0 r0_10) = chunk x1 x2 x3 x4 (rowsOf x0 3) := by
  rw [pay2_eq, pay7_eq]
  simp only [View.ld_unit_zero (S := S512x128) zero2, View.ld_unit_zero (S := S512x1) zero2, View.ld_unit_zero (S := S128x512) zero2,
    View.ld_unit_zero (S := S128x1) zero2]
  rw [ld_rows x0 3 _ _ rfl rfl]

/-- The buffer after the body's four stores is that one function, at every index. -/
theorem out_eq (y : S64x16x128.Idx) : out0_5 (F := Ideal) x0 x1 x2 x3 x4 y = blockFn x0 x1 x2 x3 x4 y := by
  unfold out0_5
  refine View.canon_apply_of_pieces (Val := Elt Ideal) (blockFn x0 x1 x2 x3 x4) _ ?_ y (cover0_5 _ _ _ _ y)
  intro p hp x
  simp only [List.mem_cons, List.mem_nil_iff, or_false] at hp
  rcases hp with rfl | rfl | rfl | rfl
  · exact (congrFun (piece3 x0 x1 x2 x3 x4) x).trans (blockFn_at x0 x1 x2 x3 x4 3 x _
      (by show 48 + 1 * (x 0).val = 16 * 3 + (x 0).val; omega) (by show 0 + 1 * (x 1).val = (x 1).val; omega)
      (by show 0 + 1 * (x 2).val = (x 2).val; omega)).symm
  · exact (congrFun (piece2 x0 x1 x2 x3 x4) x).trans (blockFn_at x0 x1 x2 x3 x4 2 x _
      (by show 32 + 1 * (x 0).val = 16 * 2 + (x 0).val; omega) (by show 0 + 1 * (x 1).val = (x 1).val; omega)
      (by show 0 + 1 * (x 2).val = (x 2).val; omega)).symm
  · exact (congrFun (piece1 x0 x1 x2 x3 x4) x).trans (blockFn_at x0 x1 x2 x3 x4 1 x _
      (by show 16 + 1 * (x 0).val = 16 * 1 + (x 0).val; omega) (by show 0 + 1 * (x 1).val = (x 1).val; omega)
      (by show 0 + 1 * (x 2).val = (x 2).val; omega)).symm
  · exact (congrFun (piece0 x0 x1 x2 x3 x4) x).trans (blockFn_at x0 x1 x2 x3 x4 0 x _
      (by show 0 + 1 * (x 0).val = 16 * 0 + (x 0).val; omega) (by show 0 + 1 * (x 1).val = (x 1).val; omega)
      (by show 0 + 1 * (x 2).val = (x 2).val; omega)).symm

end

end Cert.KernelIdeal.KerValue

end
-- ==== Proof.KerChunkAt.lean ====
/-
  One chunk read at an entry.

  Entry (a, 8·i + k, q) of a stored piece is o (8·a + k, 128·i + q), and
    o (p, l) = Σ_{c < 512} W2 (p, c) · gelu (Σ_{d < 128} W1 (c, d) · X (d, l) + B1 c) + B2 p:
  each product into the zero block is its plain sum, a bias column is read at its row, and the re-laying keeps the
  row-major position on both sides of the swap of the two middle axes.
-/
import proofs.«158709_g2000504113187169_pallasbulk_347_2_alg».proof.Proof.KerChunk
import Idealize.ShloMosaic.Shape

set_option maxRecDepth 16384

noncomputable section

namespace Cert.KernelIdeal.KerValue

open Idealize.ShloMosaic Idealize.ShloMosaic.ValueIdx Cert.KernelIdeal Cert.KernelIdeal.Gen

/-- Row 8·a + k of the [128, ·] arrays: output (or feature) k of row a. -/
def row8 (a : Fin 16) (k : Fin 8) : Fin 128 := ⟨8 * a.val + k.val, by omega⟩
/-- Row 32·a + h of the [512, ·] arrays: hidden unit h of row a. -/
def row32 (a : Fin 16) (h : Fin 32) : Fin 512 := ⟨32 * a.val + h.val, by omega⟩
/-- Lane 128·i + q: lane q of group i. -/
def lane (i : Fin 2) (q : Fin 128) : Fin 256 := ⟨128 * i.val + q.val, by omega⟩

theorem relay_apply (o : FVec Ideal S128x256 .f32) (a : Fin 16) (i : Fin 2) (k : Fin 8) (q : Fin 128) :
    relay o (ix3 a (Cert.Spec.outCh i k) q) = o (ix2 (row8 a k) (lane i q)) := by
  unfold relay
  rw [shapeCast_apply _ _ (ix3 a (Cert.Spec.outCh i k) q) (ix4 a i k q) (by
        rw [Shape.rowMajor_val_three, Shape.rowMajor_val_four]
        show ((a.val * 2 + i.val) * 8 + k.val) * 128 + q.val = (a.val * 16 + (8 * i.val + k.val)) * 128 + q.val
        omega),
    transpose_apply _ _ _ (ix4 a i k q) (ix4 a k i q) (by
        intro b; match b with | ⟨0, _⟩ => rfl | ⟨1, _⟩ => rfl | ⟨2, _⟩ => rfl | ⟨3, _⟩ => rfl),
    shapeCast_apply _ _ (ix4 a k i q) (ix2 (row8 a k) (lane i q)) (by
        rw [Shape.rowMajor_val_two, Shape.rowMajor_val_four]
        show (8 * a.val + k.val) * 256 + (128 * i.val + q.val) = ((a.val * 8 + k.val) * 2 + i.val) * 128 + q.val
        omega)]

theorem layer1_apply (W1 : FVec Ideal S512x128 .bf16) (B1 : FVec Ideal S512x1 .f32) (X : FVec Ideal S128x256 .f32)
    (c : Fin 512) (l : Fin 256) :
    layer1 W1 B1 X (ix2 c l) = (∑ d : Fin 128, W1 (ix2 c d) * X (ix2 d l)) + B1 (ix2 c 0) := by
  unfold layer1
  rw [addf_apply]
  refine congrArg₂ (· + ·) ?_ ?_
  · exact Cert.Lib.matmul_plain_zero_apply (m := 512) (k := 128) (n := 256) none W1 (truncf .bf16 X bitsLt_bf16_f32) c l
  · exact broadcastTo_apply _ _ (ix2 c l) (ix2 c 0) (by
      intro a; match a with | ⟨0, _⟩ => rfl | ⟨1, _⟩ => rfl)

theorem layer2_apply (W2 : FVec Ideal S128x512 .bf16) (B2 : FVec Ideal S128x1 .f32) (G : FVec Ideal S512x256 .f32)
    (p : Fin 128) (l : Fin 256) :
    layer2 W2 B2 G (ix2 p l) = (∑ c : Fin 512, W2 (ix2 p c) * G (ix2 c l)) + B2 (ix2 p 0) := by
  unfold layer2
  rw [addf_apply]
  refine congrArg₂ (· + ·) ?_ ?_
  · exact Cert.Lib.matmul_plain_zero_apply (m := 128) (k := 512) (n := 256) none W2 (truncf .bf16 G bitsLt_bf16_f32) p l
  · exact broadcastTo_apply _ _ (ix2 p l) (ix2 p 0) (by
      intro a; match a with | ⟨0, _⟩ => rfl | ⟨1, _⟩ => rfl)

/-- Entry (a, 8·i + k, q) of a stored piece, from the folded weights and the 16 loaded rows. -/
theorem chunk_apply (W1 : FVec Ideal S512x128 .bf16) (B1 : FVec Ideal S512x1 .f32) (W2 : FVec Ideal S128x512 .bf16) (B2 : FVec Ideal S128x1 .f32)
    (X : FVec Ideal S128x256 .f32) (a : Fin 16) (i : Fin 2) (k : Fin 8) (q : Fin 128) :
    chunk W1 B1 W2 B2 X (ix3 a (Cert.Spec.outCh i k) q)
      = (∑ c : Fin 512, W2 (ix2 (row8 a k) c)
            * Cert.Spec.gelu ((∑ d : Fin 128, W1 (ix2 c d) * X (ix2 d (lane i q))) + B1 (ix2 c 0)))
          + B2 (ix2 (row8 a k) 0) := by
  unfold chunk
  rw [relay_apply, layer2_apply]
  refine congrArg (· + B2 (ix2 (row8 a k) 0)) (Finset.sum_congr rfl fun c _ => ?_)
  rw [Cert.Spec.geluV_apply, layer1_apply]

end Cert.KernelIdeal.KerValue

end
-- ==== Proof.KerHost.lean ====
/-
  What the host lines before the kernel leave in the arrays the kernel reads.

  The identity mask: eye (a, b) = 1 when a = b and 0 otherwise (an integer comparison of the two coordinates, converted).
  The folded first-layer weight: W1 (32·a + h, 8·b + j) = eye (a, b) · w1 (h, j); its bias column: B1 (32·a + h) = b1 h.
  The folded second-layer weight: W2 (8·a + k, 32·b + h) = eye (a, b) · w2 (k, h); its bias column: B2 (8·a + k) = b2 k.
  The input re-read as [32768, 256]: entry (8·R + j, 128·i + q) is the row array's entry (R, 2·j + i, q), both being the
  same row-major position of the argument.
-/
import proofs.«158709_g2000504113187169_pallasbulk_347_2_alg».proof.Proof.KerChunkAt
import Idealize.ShloMosaic.Lib.StableHlo.Run
import Idealize.ShloMosaic.Lib.IdealHost

set_option maxRecDepth 16384

noncomputable section

namespace Cert.KernelIdeal.KerValue

open Idealize.ShloMosaic Idealize.ShloMosaic.ValueIdx Idealize.ShloMosaic.TcCoe Idealize.SL.Sem Cert.KernelIdeal Cert.KernelIdeal.Gen

/-- The 16 × 16 identity as the host computes it. -/
def eye16 : FVec Ideal S16x16 .f32 :=
  uitofp .f32 (cmpi .eq (addi (iotaInDim S16x16 32 0) (broadcastInDim S16x16 ![] bcast_S_S16x16 (constantI S_ 32 0#32)))
    (iotaInDim S16x16 32 1))

theorem eye16_apply (a b : Fin 16) : eye16 (ix2 a b) = if a = b then 1 else 0 := by
  have hx : (addi (iotaInDim S16x16 32 0) (broadcastInDim S16x16 ![] bcast_S_S16x16 (constantI S_ 32 0#32))) (ix2 a b)
      = BitVec.ofNat 32 a.val := by
    show IntOp.addi (BitVec.ofNat 32 a.val) (broadcastInDim S16x16 ![] bcast_S_S16x16 (constantI S_ 32 0#32) (ix2 a b)) = _
    rw [broadcastInDim_scalar_apply]
    show BitVec.ofNat 32 a.val + 0#32 = _
    simp
  show (((IntOp.cmpi .eq ((addi (iotaInDim S16x16 32 0) (broadcastInDim S16x16 ![] bcast_S_S16x16 (constantI S_ 32 0#32))) (ix2 a b))
      (BitVec.ofNat 32 b.val)).toNat : ℝ) : EReal) = _
  rw [hx]
  by_cases h : a = b
  · subst h; rw [if_pos rfl]; simp [IntOp.cmpi]
  · rw [if_neg h]
    have hne : BitVec.ofNat 32 a.val ≠ BitVec.ofNat 32 b.val := fun e => h (Fin.ext (by
      have := congrArg BitVec.toNat e
      simp only [BitVec.toNat_ofNat] at this
      have ha := a.isLt; have hb := b.isLt
      omega))
    simp [IntOp.cmpi, hne]

/-- The folded first-layer weight. -/
def w1fold (w1 : FVec Ideal S32x8 .f32) : FVec Ideal S512x128 .bf16 :=
  truncf .bf16 (shapeCast S512x128
    (mulf (broadcastInDim S16x32x16x8 ![0, 1, 2, 3] bcast_S16x1x16x1_S16x32x16x8_0_1_2_3
            (broadcastInDim S16x1x16x1 ![0, 2] bcast_S16x16_S16x1x16x1_0_2 eye16))
          (broadcastInDim S16x32x16x8 ![0, 1, 2, 3] bcast_S1x32x1x8_S16x32x16x8_0_1_2_3
            (broadcastInDim S1x32x1x8 ![1, 3] bcast_S32x8_S1x32x1x8_1_3 w1)))
    shapeCasts_S16x32x16x8_S512x128) bitsLt_bf16_f32

theorem w1fold_apply (w1 : FVec Ideal S32x8 .f32) (a : Fin 16) (h : Fin 32) (b : Fin 16) (j : Fin 8) :
    w1fold w1 (ix2 (row32 a h) (row8 b j)) = eye16 (ix2 a b) * w1 (ix2 h j) := by
  unfold w1fold
  rw [truncf_apply, shapeCast_apply _ _ (ix2 (row32 a h) (row8 b j)) (ix4 a h b j) (by
        rw [Shape.rowMajor_val_two, Shape.rowMajor_val_four]
        show ((a.val * 32 + h.val) * 16 + b.val) * 8 + j.val = (32 * a.val + h.val) * 128 + (8 * b.val + j.val)
        omega), mulf_apply]
  refine congrArg₂ (· * ·) ?_ ?_
  · rw [broadcastInDim_apply _ _ _ (ix4 a h b j) (ix4 a (0 : Fin 1) b (0 : Fin 1)) (by
          intro d; match d with | ⟨0, _⟩ => rfl | ⟨1, _⟩ => rfl | ⟨2, _⟩ => rfl | ⟨3, _⟩ => rfl),
      broadcastInDim_apply _ _ _ (ix4 a (0 : Fin 1) b (0 : Fin 1)) (ix2 a b) (by
          intro d; match d with | ⟨0, _⟩ => rfl | ⟨1, _⟩ => rfl)]
  · rw [broadcastInDim_apply _ _ _ (ix4 a h b j) (ix4 (0 : Fin 1) h (0 : Fin 1) j) (by
          intro d; match d with | ⟨0, _⟩ => rfl | ⟨1, _⟩ => rfl | ⟨2, _⟩ => rfl | ⟨3, _⟩ => rfl),
      broadcastInDim_apply _ _ _ (ix4 (0 : Fin 1) h (0 : Fin 1) j) (ix2 h j) (by
          intro d; match d with | ⟨0, _⟩ => rfl | ⟨1, _⟩ => rfl)]

/-- The folded second-layer weight. -/
def w2fold (w2 : FVec Ideal S8x32 .f32) : FVec Ideal S128x512 .bf16 :=
  truncf .bf16 (shapeCast S128x512
    (mulf (broadcastInDim S16x8x16x32 ![0, 1, 2, 3] bcast_S16x1x16x1_S16x8x16x32_0_1_2_3
            (broadcastInDim S16x1x16x1 ![0, 2] bcast_S16x16_S16x1x16x1_0_2 eye16))
          (broadcastInDim S16x8x16x32 ![0, 1, 2, 3] bcast_S1x8x1x32_S16x8x16x32_0_1_2_3
            (broadcastInDim S1x8x1x32 ![1, 3] bcast_S8x32_S1x8x1x32_1_3 w2)))
    shapeCasts_S16x8x16x32_S128x512) bitsLt_bf16_f32

theorem w2fold_apply (w2 : FVec Ideal S8x32 .f32) (a : Fin 16) (k : Fin 8) (b : Fin 16) (h : Fin 32) :
    w2fold w2 (ix2 (row8 a k) (row32 b h)) = eye16 (ix2 a b) * w2 (ix2 k h) := by
  unfold w2fold
  rw [truncf_apply, shapeCast_apply _ _ (ix2 (row8 a k) (row32 b h)) (ix4 a k b h) (by
        rw [Shape.rowMajor_val_two, Shape.rowMajor_val_four]
        show ((a.val * 8 + k.val) * 16 + b.val) * 32 + h.val = (8 * a.val + k.val) * 512 + (32 * b.val + h.val)
        omega), mulf_apply]
  refine congrArg₂ (· * ·) ?_ ?_
  · rw [broadcastInDim_apply _ _ _ (ix4 a k b h) (ix4 a (0 : Fin 1) b (0 : Fin 1)) (by
          intro d; match d with | ⟨0, _⟩ => rfl | ⟨1, _⟩ => rfl | ⟨2, _⟩ => rfl | ⟨3, _⟩ => rfl),
      broadcastInDim_apply _ _ _ (ix4 a (0 : Fin 1) b (0 : Fin 1)) (ix2 a b) (by
          intro d; match d with | ⟨0, _⟩ => rfl | ⟨1, _⟩ => rfl)]
  · rw [broadcastInDim_apply _ _ _ (ix4 a k b h) (ix4 (0 : Fin 1) k (0 : Fin 1) h) (by
          intro d; match d with | ⟨0, _⟩ => rfl | ⟨1, _⟩ => rfl | ⟨2, _⟩ => rfl | ⟨3, _⟩ => rfl),
      broadcastInDim_apply _ _ _ (ix4 (0 : Fin 1) k (0 : Fin 1) h) (ix2 k h) (by
          intro d; match d with | ⟨0, _⟩ => rfl | ⟨1, _⟩ => rfl)]

/-- The first bias as a column, tiled over the 16 rows of a chunk. -/
def b1col (b1 : FVec Ideal S32 .f32) : FVec Ideal S512x1 .f32 :=
  shapeCast S512x1 (shapeCast S512 (broadcastInDim S16x32 ![0, 1] bcast_S1x32_S16x32_0_1
    (shapeCast S1x32 b1 shapeCasts_S32_S1x32)) shapeCasts_S16x32_S512) shapeCasts_S512_S512x1

theorem b1col_apply (b1 : FVec Ideal S32 .f32) (a : Fin 16) (h : Fin 32) :
    b1col b1 (ix2 (row32 a h) 0) = b1 (ix1 h) := by
  unfold b1col
  rw [shapeCast_apply _ _ (ix2 (row32 a h) (0 : Fin 1)) (ix1 (row32 a h)) (by
        rw [Shape.rowMajor_val_one, Shape.rowMajor_val_two]
        show 32 * a.val + h.val = (32 * a.val + h.val) * 1 + 0
        omega),
    shapeCast_apply _ _ (ix1 (row32 a h)) (ix2 a h) (by
        rw [Shape.rowMajor_val_one, Shape.rowMajor_val_two]
        show a.val * 32 + h.val = 32 * a.val + h.val
        omega),
    broadcastInDim_apply _ _ _ (ix2 a h) (ix2 (0 : Fin 1) h) (by
        intro d; match d with | ⟨0, _⟩ => rfl | ⟨1, _⟩ => rfl),
    shapeCast_apply _ _ (ix2 (0 : Fin 1) h) (ix1 h) (by
        rw [Shape.rowMajor_val_one, Shape.rowMajor_val_two]
        show h.val = 0 * 32 + h.val
        omega)]

/-- The second bias as a column, tiled over the 16 rows of a chunk. -/
def b2col (b2 : FVec Ideal S8 .f32) : FVec Ideal S128x1 .f32 :=
  shapeCast S128x1 (shapeCast S128 (broadcastInDim S16x8 ![0, 1] bcast_S1x8_S16x8_0_1
    (shapeCast S1x8 b2 shapeCasts_S8_S1x8)) shapeCasts_S16x8_S128) shapeCasts_S128_S128x1

theorem b2col_apply (b2 : FVec Ideal S8 .f32) (a : Fin 16) (k : Fin 8) :
    b2col b2 (ix2 (row8 a k) 0) = b2 (ix1 k) := by
  unfold b2col
  rw [shapeCast_apply _ _ (ix2 (row8 a k) (0 : Fin 1)) (ix1 (row8 a k)) (by
        rw [Shape.rowMajor_val_one, Shape.rowMajor_val_two]
        show 8 * a.val + k.val = (8 * a.val + k.val) * 1 + 0
        omega),
    shapeCast_apply _ _ (ix1 (row8 a k)) (ix2 a k) (by
        rw [Shape.rowMajor_val_one, Shape.rowMajor_val_two]
        show a.val * 8 + k.val = 8 * a.val + k.val
        omega),
    broadcastInDim_apply _ _ _ (ix2 a k) (ix2 (0 : Fin 1) k) (by
        intro d; match d with | ⟨0, _⟩ => rfl | ⟨1, _⟩ => rfl),
    shapeCast_apply _ _ (ix2 (0 : Fin 1) k) (ix1 k) (by
        rw [Shape.rowMajor_val_one, Shape.rowMajor_val_two]
        show k.val = 0 * 8 + k.val
        omega)]

/-- The input re-read as [32768, 256] against the input re-read as rows [4096, 16, 128]. -/
theorem x2_apply (x : FVec Ideal S8x512x16x128 .f32) (R : Fin 4096) (j : Fin 8) (i : Fin 2) (q : Fin 128)
    (rr : Fin 32768) (hrr : rr.val = 8 * R.val + j.val) :
    shapeCast S32768x256 x shapeCasts_S8x512x16x128_S32768x256 (ix2 rr (lane i q))
      = shapeCast Cert.Spec.SRows x (by decide) (ix3 R (Cert.Spec.inCh j i) q) := by
  have hR := R.isLt
  rw [shapeCast_apply _ _ (ix2 rr (lane i q))
        (ix4 (⟨R.val / 512, by omega⟩ : Fin 8) (⟨R.val % 512, by omega⟩ : Fin 512) (Cert.Spec.inCh j i) q) (by
        rw [Shape.rowMajor_val_two, Shape.rowMajor_val_four]
        show ((R.val / 512 * 512 + R.val % 512) * 16 + (2 * j.val + i.val)) * 128 + q.val = rr.val * 256 + (128 * i.val + q.val)
        omega),
    shapeCast_apply _ _ (ix3 R (Cert.Spec.inCh j i) q)
        (ix4 (⟨R.val / 512, by omega⟩ : Fin 8) (⟨R.val % 512, by omega⟩ : Fin 512) (Cert.Spec.inCh j i) q) (by
        rw [Shape.rowMajor_val_three, Shape.rowMajor_val_four]
        show ((R.val / 512 * 512 + R.val % 512) * 16 + (2 * j.val + i.val)) * 128 + q.val = (R.val * 16 + (2 * j.val + i.val)) * 128 + q.val
        omega)]

/-! ## The arrays as the kernel finds them -/

variable (m : (ℓ : Loc nD τ sig) → Buf (Elt Ideal) ℓ) (c : Dev nD)

theorem V_x2 : (V m c main_v0 : S32768x256.Idx → EReal)
    = shapeCast S32768x256 (m ((c : Thread nD τ).loc main_arg0)) shapeCasts_S8x512x16x128_S32768x256 := by
  show StableHlo.after hostOps0 (fun b => m (c, b)) (Proc.devRef .tc main_v0) = _
  after_results; rfl

theorem V_w1 : (V m c main_v13 : S512x128.Idx → EReal) = w1fold (m ((c : Thread nD τ).loc main_arg1)) := by
  show StableHlo.after hostOps0 (fun b => m (c, b)) (Proc.devRef .tc main_v13) = _
  after_results; rfl

theorem V_b1 : (V m c main_v24 : S512x1.Idx → EReal) = b1col (m ((c : Thread nD τ).loc main_arg2)) := by
  show StableHlo.after hostOps0 (fun b => m (c, b)) (Proc.devRef .tc main_v24) = _
  after_results; rfl

theorem V_w2 : (V m c main_v20 : S128x512.Idx → EReal) = w2fold (m ((c : Thread nD τ).loc main_arg3)) := by
  show StableHlo.after hostOps0 (fun b => m (c, b)) (Proc.devRef .tc main_v20) = _
  after_results; rfl

theorem V_b2 : (V m c main_v28 : S128x1.Idx → EReal) = b2col (m ((c : Thread nD τ).loc main_arg4)) := by
  show StableHlo.after hostOps0 (fun b => m (c, b)) (Proc.devRef .tc main_v28) = _
  after_results; rfl

end Cert.KernelIdeal.KerValue

end
-- ==== Proof.KerMath.lean ====
/-
  The folded contraction collapses to the perceptron of one row.

  With W2 (8·a + k, 32·b + h) = eye (a, b) · w2 (k, h), the sum over the 512 folded hidden rows splits as (b, h): off
  the block b = a every term is (0 · w2) · g = 0, and on it (1 · w2 (k, h)) · g = w2 (k, h) · g. The same happens one
  level down with W1 (32·a + h, 8·b + j) = eye (a, b) · w1 (h, j) over the 128 folded feature rows. Only 0 · y = 0 and
  1 · y = y are used, which hold at every extended real, so nothing is assumed finite.
-/
import proofs.«158709_g2000504113187169_pallasbulk_347_2_alg».proof.Proof.KerHost

set_option maxRecDepth 16384

noncomputable section

namespace Cert.KernelIdeal.KerValue

open Idealize.ShloMosaic Idealize.ShloMosaic.ValueIdx Cert.KernelIdeal Cert.KernelIdeal.Gen

/-- A folded hidden row is (row of the chunk, hidden unit). -/
def split32 : Fin 512 ≃ Fin 16 × Fin 32 where
  toFun c := (⟨c.val / 32, by have := c.isLt; omega⟩, ⟨c.val % 32, Nat.mod_lt _ (by omega)⟩)
  invFun p := row32 p.1 p.2
  left_inv c := Fin.ext (by show 32 * (c.val / 32) + c.val % 32 = c.val; omega)
  right_inv p := Prod.ext (Fin.ext (by show (32 * p.1.val + p.2.val) / 32 = p.1.val; have := p.2.isLt; omega))
    (Fin.ext (by show (32 * p.1.val + p.2.val) % 32 = p.2.val; have := p.2.isLt; omega))

/-- A folded feature row is (row of the chunk, feature). -/
def split8 : Fin 128 ≃ Fin 16 × Fin 8 where
  toFun d := (⟨d.val / 8, by have := d.isLt; omega⟩, ⟨d.val % 8, Nat.mod_lt _ (by omega)⟩)
  invFun p := row8 p.1 p.2
  left_inv d := Fin.ext (by show 8 * (d.val / 8) + d.val % 8 = d.val; omega)
  right_inv p := Prod.ext (Fin.ext (by show (8 * p.1.val + p.2.val) / 8 = p.1.val; have := p.2.isLt; omega))
    (Fin.ext (by show (8 * p.1.val + p.2.val) % 8 = p.2.val; have := p.2.isLt; omega))

/-- The first layer of chunk row a, hidden unit h, on the folded weight is the perceptron's hidden value. -/
theorem hidden_fold (w1 : FVec Ideal S32x8 .f32) (b1 : FVec Ideal S32 .f32) (X : FVec Ideal S128x256 .f32)
    (x3 : Cert.Spec.SRows.Idx → EReal) (R : Fin 4096) (a : Fin 16) (i : Fin 2) (q : Fin 128) (h : Fin 32)
    (hX : ∀ j : Fin 8, X (ix2 (row8 a j) (lane i q)) = x3 (ix3 R (Cert.Spec.inCh j i) q)) :
    (∑ d : Fin 128, w1fold w1 (ix2 (row32 a h) d) * X (ix2 d (lane i q))) + b1col b1 (ix2 (row32 a h) 0)
      = Cert.Spec.hidden x3 w1 b1 R i q h := by
  unfold Cert.Spec.hidden
  rw [b1col_apply]
  refine congrArg (· + b1 (ix1 h)) ?_
  rw [Cert.Spec.sum_block split8 a (fun d => w1fold w1 (ix2 (row32 a h) d) * X (ix2 d (lane i q))) (fun d hd => by
    have hdd : d = row8 (split8 d).1 (split8 d).2 := (split8.left_inv d).symm
    show w1fold w1 (ix2 (row32 a h) d) * X (ix2 d (lane i q)) = 0
    rw [hdd, w1fold_apply, eye16_apply, if_neg (fun e => hd e.symm), zero_mul, zero_mul])]
  refine Finset.sum_congr rfl fun j _ => ?_
  show w1fold w1 (ix2 (row32 a h) (row8 a j)) * X (ix2 (row8 a j) (lane i q)) = _
  rw [w1fold_apply, eye16_apply, if_pos rfl, one_mul, hX j]

/-- Entry (a, 8·i + k, q) of a chunk on the folded weights is output k of the perceptron on the row the chunk's row a holds. -/
theorem chunk_fold (w1 : FVec Ideal S32x8 .f32) (b1 : FVec Ideal S32 .f32) (w2 : FVec Ideal S8x32 .f32) (b2 : FVec Ideal S8 .f32)
    (X : FVec Ideal S128x256 .f32) (x3 : Cert.Spec.SRows.Idx → EReal) (R : Fin 4096) (a : Fin 16) (i : Fin 2) (k : Fin 8) (q : Fin 128)
    (hX : ∀ j : Fin 8, X (ix2 (row8 a j) (lane i q)) = x3 (ix3 R (Cert.Spec.inCh j i) q)) :
    chunk (w1fold w1) (b1col b1) (w2fold w2) (b2col b2) X (ix3 a (Cert.Spec.outCh i k) q)
      = Cert.Spec.out x3 w1 b1 w2 b2 R i k q := by
  rw [chunk_apply]
  unfold Cert.Spec.out
  rw [b2col_apply]
  refine congrArg (· + b2 (ix1 k)) ?_
  rw [Cert.Spec.sum_block split32 a (fun c => w2fold w2 (ix2 (row8 a k) c)
        * Cert.Spec.gelu ((∑ d : Fin 128, w1fold w1 (ix2 c d) * X (ix2 d (lane i q))) + b1col b1 (ix2 c 0))) (fun c hc => by
    have hcc : c = row32 (split32 c).1 (split32 c).2 := (split32.left_inv c).symm
    show w2fold w2 (ix2 (row8 a k) c) * _ = 0
    rw [hcc, w2fold_apply, eye16_apply, if_neg (fun e => hc e.symm), zero_mul, zero_mul])]
  refine Finset.sum_congr rfl fun h _ => ?_
  show w2fold w2 (ix2 (row8 a k) (row32 a h))
      * Cert.Spec.gelu ((∑ d : Fin 128, w1fold w1 (ix2 (row32 a h) d) * X (ix2 d (lane i q))) + b1col b1 (ix2 (row32 a h) 0)) = _
  rw [w2fold_apply, eye16_apply, if_pos rfl, one_mul, hidden_fold w1 b1 X x3 R a i q h hX]

end Cert.KernelIdeal.KerValue

end
-- ==== Proof.KerPoint.lean ====
/-
  What grid point t writes back.

  Point t's input block is rows 512·t … 512·t + 511 of the [32768, 256] re-reading of the input: row 8·R' + j of the block
  is feature j of global row 64·t + R'. The weight and bias windows are whole arrays at every point. Its output block is
  rows 64·t … 64·t + 63 of the result. Hence the block the point writes back is the restriction of the perceptron over
  the rows to those 64 rows.
-/
import proofs.«158709_g2000504113187169_pallasbulk_347_2_alg».proof.Proof.KerBlock
import proofs.«158709_g2000504113187169_pallasbulk_347_2_alg».proof.Proof.KerMath

set_option maxRecDepth 16384

noncomputable section

namespace Cert.KernelIdeal.KerValue

open Idealize.ShloMosaic Idealize.ShloMosaic.ValueIdx Idealize.ShloMosaic.TcCoe Idealize.SL.Sem Cert.KernelIdeal Cert.KernelIdeal.Gen

/-- On 64 rows whose folded input block X0 holds global rows 64·T …: the body's buffer is the perceptron's rows. -/
theorem block_rows (X0 : Vec Ideal S512x256 .f32) (w1 : FVec Ideal S32x8 .f32) (b1 : FVec Ideal S32 .f32) (w2 : FVec Ideal S8x32 .f32)
    (b2 : FVec Ideal S8 .f32) (x3 : Cert.Spec.SRows.Idx → EReal) (T : Nat) (hT : T < 64)
    (hX : ∀ (R' : Fin 64) (j : Fin 8) (i : Fin 2) (q : Fin 128) (rr : Fin 512) (_ : rr.val = 8 * R'.val + j.val) (R : Fin 4096)
        (_ : R.val = 64 * T + R'.val), X0 (ix2 rr (lane i q)) = x3 (ix3 R (Cert.Spec.inCh j i) q))
    (y : S64x16x128.Idx) (z : Cert.Spec.SRows.Idx) (hz0 : (z 0).val = 64 * T + (y 0).val) (hz1 : (z 1).val = (y 1).val)
    (hz2 : (z 2).val = (y 2).val) :
    blockFn X0 (w1fold w1) (b1col b1) (w2fold w2) (b2col b2) y = Cert.Spec.rows x3 w1 b1 w2 b2 z := by
  have hy0 : (y 0).val < 64 := (y 0).isLt
  have hy1 : (y 1).val < 16 := (y 1).isLt
  -- the coordinates of y: chunk s, row a of the chunk, group i, output k, lane q
  let s : Fin 4 := ⟨(y 0).val / 16, by omega⟩
  let a : Fin 16 := ⟨(y 0).val % 16, Nat.mod_lt _ (by omega)⟩
  let i : Fin 2 := ⟨(y 1).val / 8, by omega⟩
  let k : Fin 8 := ⟨(y 1).val % 8, Nat.mod_lt _ (by omega)⟩
  let q : Fin 128 := y 2
  have hR : 64 * T + (y 0).val < 4096 := by omega
  have ech : (y 1 : Fin 16) = Cert.Spec.outCh i k := Fin.ext (by show (y 1).val = 8 * ((y 1).val / 8) + (y 1).val % 8; omega)
  have ez0 : z 0 = (⟨64 * T + (y 0).val, hR⟩ : Fin 4096) := Fin.ext hz0
  have ezi : (⟨(z 1).val / 8, by have : (z 1).val < 16 := (z 1).isLt; omega⟩ : Fin 2) = i := Fin.ext (by show (z 1).val / 8 = (y 1).val / 8; rw [hz1])
  have ezk : (⟨(z 1).val % 8, Nat.mod_lt _ (by omega)⟩ : Fin 8) = k := Fin.ext (by show (z 1).val % 8 = (y 1).val % 8; rw [hz1])
  have ez2 : (z 2 : Fin 128) = q := Fin.ext hz2
  show chunk (w1fold w1) (b1col b1) (w2fold w2) (b2col b2) (rowsOf X0 s) (ix3 a (y 1) (y 2))
    = Cert.Spec.out x3 w1 b1 w2 b2 (z 0) ⟨(z 1).val / 8, _⟩ ⟨(z 1).val % 8, _⟩ (z 2)
  rw [ez0, ezi, ezk, ez2, ech]
  refine chunk_fold w1 b1 w2 b2 (rowsOf X0 s) x3 ⟨64 * T + (y 0).val, hR⟩ a i k q fun j => ?_
  show X0 (ix2 ⟨128 * s.val + (row8 a j).val, _⟩ (lane i q)) = _
  exact hX (y 0) j i q ⟨128 * s.val + (row8 a j).val, _⟩
    (by show 128 * ((y 0).val / 16) + (8 * ((y 0).val % 16) + j.val) = 8 * (y 0).val + j.val; omega) _ rfl

variable (m : (ℓ : Loc nD τ sig) → Buf (Elt Ideal) ℓ) (c : Dev nD)

/-- The printed index maps over the grid: the input and output blocks move with the point, the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem iblk1 (t : Fin cfg0.N) : iblk m c 1 t = w1fold (m ((c : Thread nD τ).loc main_arg1)) := by
  obtain ⟨-, -, e0, e1, -⟩ := idx_facts t
  funext j
  show V m c main_v13 (((cfg0.win 1).blk t).view.emb j) = _
  have ej : ((cfg0.win 1).blk t).view.emb j = j := funext fun a => Fin.ext (by
    match a with
    | ⟨0, _⟩ => show win0_1.index t (0 : Fin 2) * 512 + 1 * (j 0).val = (j 0).val; omega
    | ⟨1, _⟩ => show win0_1.index t (1 : Fin 2) * 128 + 1 * (j 1).val = (j 1).val; omega)
  rw [ej]; exact congrFun (V_w1 m c) j

theorem iblk2 (t : Fin cfg0.N) : iblk m c 2 t = b1col (m ((c : Thread nD τ).loc main_arg2)) := by
  obtain ⟨-, -, -, -, e0, e1, -⟩ := idx_facts t
  funext j
  show V m c main_v24 (((cfg0.win 2).blk t).view.emb j) = _
  have ej : ((cfg0.win 2).blk t).view.emb j = j := funext fun a => Fin.ext (by
    match a with
    | ⟨0, _⟩ => show win0_2.index t (0 : Fin 2) * 512 + 1 * (j 0).val = (j 0).val; omega
    | ⟨1, _⟩ => show win0_2.index t (1 : Fin 2) * 1 + 1 * (j 1).val = (j 1).val; omega)
  rw [ej]; exact congrFun (V_b1 m c) j

theorem iblk3 (t : Fin cfg0.N) : iblk m c 3 t = w2fold (m ((c : Thread nD τ).loc main_arg3)) := by
  obtain ⟨-, -, -, -, -, -, e0, e1, -⟩ := idx_facts t
  funext j
  show V m c main_v20 (((cfg0.win 3).blk t).view.emb j) = _
  have ej : ((cfg0.win 3).blk t).view.emb j = j := funext fun a => Fin.ext (by
    match a with
    | ⟨0, _⟩ => show win0_3.index t (0 : Fin 2) * 128 + 1 * (j 0).val = (j 0).val; omega
    | ⟨1, _⟩ => show win0_3.index t (1 : Fin 2) * 512 + 1 * (j 1).val = (j 1).val; omega)
  rw [ej]; exact congrFun (V_w2 m c) j

theorem iblk4 (t : Fin cfg0.N) : iblk m c 4 t = b2col (m ((c : Thread nD τ).loc main_arg4)) := by
  obtain ⟨-, -, -, -, -, -, -, -, e0, e1, -⟩ := idx_facts t
  funext j
  show V m c main_v28 (((cfg0.win 4).blk t).view.emb j) = _
  have ej : ((cfg0.win 4).blk t).view.emb j = j := funext fun a => Fin.ext (by
    match a with
    | ⟨0, _⟩ => show win0_4.index t (0 : Fin 2) * 128 + 1 * (j 0).val = (j 0).val; omega
    | ⟨1, _⟩ => show win0_4.index t (1 : Fin 2) * 1 + 1 * (j 1).val = (j 1).val; omega)
  rw [ej]; exact congrFun (V_b2 m c) j

/-- The input as rows [4096, 16, 128]. -/
def x3 : Cert.Spec.SRows.Idx → EReal :=
  shapeCast Cert.Spec.SRows (m ((c : Thread nD τ).loc main_arg0) : S8x512x16x128.Idx → EReal)
    (by decide : S8x512x16x128.ShapeCasts Cert.Spec.SRows)

/-- The perceptron over all rows of the input as launched. -/
def G : S4096x16x128.Idx → Elt Ideal .f32 :=
  Cert.Spec.rows (x3 m c) (m ((c : Thread nD τ).loc main_arg1)) (m ((c : Thread nD τ).loc main_arg2))
    (m ((c : Thread nD τ).loc main_arg3)) (m ((c : Thread nD τ).loc main_arg4))

/-- Row 8·R' + j of point t's input block is feature j of global row 64·t + R'. -/
theorem iblk0_apply (t : Fin cfg0.N) (R' : Fin 64) (j : Fin 8) (i : Fin 2) (q : Fin 128) (rr : Fin 512) (hrr : rr.val = 8 * R'.val + j.val)
    (R : Fin 4096) (hR : R.val = 64 * t.val + R'.val) :
    iblk m c 0 t (ix2 rr (lane i q)) = x3 m c (ix3 R (Cert.Spec.inCh j i) q) := by
  obtain ⟨e0, e1, -⟩ := idx_facts t
  have ht : t.val < 64 := lt_of_lt_of_eq t.isLt N_0
  show V m c main_v0 (((cfg0.win 0).blk t).view.emb (ix2 rr (lane i q))) = _
  have ej : ((cfg0.win 0).blk t).view.emb (ix2 rr (lane i q))
      = ix2 (⟨512 * t.val + rr.val, by have := rr.isLt; omega⟩ : Fin 32768) (lane i q) := funext fun a => Fin.ext (by
    match a with
    | ⟨0, _⟩ => show win0_0.index t (0 : Fin 2) * 512 + 1 * rr.val = 512 * t.val + rr.val; omega
    | ⟨1, _⟩ => show win0_0.index t (1 : Fin 2) * 256 + 1 * (lane i q).val = (lane i q).val; omega)
  rw [ej, V_x2 m c]
  exact x2_apply _ R j i q _ (by show 512 * t.val + rr.val = 8 * R.val + j.val; omega)

/-- WHAT POINT t WRITES BACK is block t of the perceptron over the rows. -/
theorem flushed_eq (t : Fin cfg0.N) :
    (dats m 0 c).flushed 5 t = ((cfg0.win 5).blk t).view.read (Elt Ideal) (G m c) := by
  show (cfg0.win 5).cut (grid0.coords t) ((dats m 0 c).after 5 t) = _
  rw [after0_5]
  obtain ⟨-, -, -, -, -, -, -, -, -, -, e0, e1, e2⟩ := idx_facts t
  have ht : t.val < 64 := lt_of_lt_of_eq t.isLt N_0
  funext y
  show out0_5 (iblk m c 0 t) (iblk m c 1 t) (iblk m c 2 t) (iblk m c 3 t) (iblk m c 4 t) y
    = G m c (((cfg0.win 5).blk t).view.emb y)
  refine (out_eq (iblk m c 0 t) (iblk m c 1 t) (iblk m c 2 t) (iblk m c 3 t) (iblk m c 4 t) y).trans ?_
  rw [iblk1 m c t, iblk2 m c t, iblk3 m c t, iblk4 m c t]
  exact block_rows (iblk m c 0 t) _ _ _ _ (x3 m c) t.val ht
    (fun R' j i q rr hrr R hR => iblk0_apply m c t R' j i q rr hrr R hR) y _
    (by show win0_5.index t (0 : Fin 3) * 64 + 1 * (y 0).val = 64 * t.val + (y 0).val; omega)
    (by show win0_5.index t (1 : Fin 3) * 16 + 1 * (y 1).val = (y 1).val; omega)
    (by show win0_5.index t (2 : Fin 3) * 128 + 1 * (y 2).val = (y 2).val; omega)

end Cert.KernelIdeal.KerValue

end
-- ==== Proof.KerRun.lean ====
/-
  The whole result array and the run.

  The 64 output blocks of 64 rows tile the 4096 rows (row R is in block R / 64), and each is the restriction of the
  perceptron over the rows, so after the last point the kernel's array is that function. The one host line after the
  kernel re-reads it as [8, 512, 16, 128], which is the specification's result of the argument arrays.
-/
import proofs.«158709_g2000504113187169_pallasbulk_347_2_alg».proof.Proof.KerPoint
import Idealize.ShloMosaic.Lib.StableHlo.Run

set_option maxRecDepth 16384

noncomputable section

namespace Cert.KernelIdeal.KerValue

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- A row index is in point t's block iff each coordinate is in the block's range on its axis. -/
theorem mem_blk (t : Fin cfg0.N) (i : S4096x16x128.Idx) :
    i ∈ ((cfg0.win 5).blk t).view.set ↔ ∀ a : Fin 3, win0_5.index t a * S64x16x128.size a ≤ (i a).val
      ∧ (i a).val < win0_5.index t a * S64x16x128.size a + S64x16x128.size a := by
  show i ∈ ((View.whole main_v29).slice (win0_5.rect t)).set ↔ _
  rw [View.set_slice_whole, Rect.mem_set_unit]
  exact Iff.rfl

/-- Every row is in the block of the point R / 64. -/
theorem cover (i : S4096x16x128.Idx) : ∃ t : Fin cfg0.N, (cfg0.win 5).flush t = true ∧ i ∈ ((cfg0.win 5).blk t).view.set := by
  have hi0 : (i 0).val < 4096 := (i 0).isLt
  have hi1 : (i 1).val < 16 := (i 1).isLt
  have hi2 : (i 2).val < 128 := (i 2).isLt
  let t : Fin cfg0.N := ⟨(i 0).val / 64, lt_of_lt_of_eq (by omega) N_0.symm⟩
  obtain ⟨-, -, -, -, -, -, -, -, -, -, e0, e1, e2⟩ := idx_facts t
  have et : t.val = (i 0).val / 64 := rfl
  refine ⟨t, flush0_5 t, ?_⟩
  rw [mem_blk]
  intro a
  match a with
  | ⟨0, _⟩ => show win0_5.index t (0 : Fin 3) * 64 ≤ (i 0).val ∧ (i 0).val < win0_5.index t (0 : Fin 3) * 64 + 64; omega
  | ⟨1, _⟩ => show win0_5.index t (1 : Fin 3) * 16 ≤ (i 1).val ∧ (i 1).val < win0_5.index t (1 : Fin 3) * 16 + 16; omega
  | ⟨2, _⟩ => show win0_5.index t (2 : Fin 3) * 128 ≤ (i 2).val ∧ (i 2).val < win0_5.index t (2 : Fin 3) * 128 + 128; omega

/-- THE ARRAY after the last point: the perceptron over the rows. -/
theorem final : (dats m 0 c).arrAt 5 cfg0.N = G m c :=
  (dats m 0 c).arrAt_eq_of_cover 5 (G m c) (fun t _ => flushed_eq m c t) (cover)

/-- The host line after the kernel re-reads the rows as [8, 512, 16, 128]. -/
theorem tail : Pipeline.afterTail₀ cfgs (dats m) 0 (V0 m) [hostOps1] c main_v30
    = Cert.Spec.result (m ((c : Thread nD τ).loc main_arg0)) (m ((c : Thread nD τ).loc main_arg1))
        (m ((c : Thread nD τ).loc main_arg2)) (m ((c : Thread nD τ).loc main_arg3)) (m ((c : Thread nD τ).loc main_arg4)) := by
  unfold Pipeline.afterTail₀
  show StableHlo.after hostOps1 _ (Proc.devRef .tc main_v30) = _
  after_results
  rw [show Pipeline.withArrays spec0 c (V0 m c) (fun w => (dats m 0 c).arrAt w cfg0.N) (Proc.devRef .tc main_v29) = G m c from
    (Pipeline.withArrays_arr spec0 launch0.win.arr_inj c _ _ 5).trans (final m c)]
  rfl

/-- The kernel's run, read: the result array at the specification's function of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v30)
        = Cert.Spec.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v30 (Pipeline.mem_restRefs_of main_v30 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.RefRow.lean ====
/-
  One row of a block through the folded two-layer perceptron, as a function of the folded weights and the loaded row.

  The body treats the 16 rows of a block one after the other, each by the same sequence of operations: the [1,16,128]
  row is read as [16,128], multiplied from the left by the [64,16] weight into a zero accumulator, the [64,1] bias is
  added along the lanes, the tanh form of GELU is applied, the [16,64] weight multiplies the result from the left into a
  zero accumulator, the [16,1] bias is added along the lanes, and the [16,128] result is stored as a [1,16,128] row.
  Every store's payload of the generated frame is this one function of the row it loaded.
-/
import proofs.«158709_g2000504113187169_pallasbulk_347_2_alg».proof.Proof.Gen.ReferenceIdeal.Frame
import proofs.«158709_g2000504113187169_pallasbulk_347_2_alg».proof.Proof.Spec
import Idealize.ShloMosaic.Lib.Pipeline.Value

noncomputable section

namespace Cert.ReferenceIdeal.RefValue

open Cert.ReferenceIdeal Cert.ReferenceIdeal.Gen Idealize.ShloMosaic Idealize.SL.Sem

/-- The hidden layer of one row before the activation: the [64,16] weight times the row read as [16,128], plus the
    bias column along the lanes. -/
def hiddenV (W1 : FVec Ideal S64x16 .f32) (B1 : FVec Ideal S64x1 .f32) (x : Vec Ideal S1x16x128 .f32) : FVec Ideal S64x128 .f32 :=
  have xr : FVec Ideal S16x128 .f32 := shapeCast S16x128 x shapeCasts_S1x16x128_S16x128
  have z : FVec Ideal S64x128 .f32 := constant S64x128 .f32 0x00000000#32
  have p : FVec Ideal S64x128 .f32 := matmul dot_S64x16_S16x128_S64x128_1_0_0_1_n_n none W1 xr z
  have b : FVec Ideal S64x128 .f32 := broadcastTo S64x128 B1 broadcasts_S64x1_S64x128
  addf p b

/-- The stored row: the [16,64] weight times the activated hidden layer, plus the bias column, as a [1,16,128] row. -/
def rowV (W1 : FVec Ideal S64x16 .f32) (B1 : FVec Ideal S64x1 .f32) (W2 : FVec Ideal S16x64 .f32) (B2 : FVec Ideal S16x1 .f32)
    (x : Vec Ideal S1x16x128 .f32) : FVec Ideal S1x16x128 .f32 :=
  have g : FVec Ideal S64x128 .f32 := Cert.Spec.geluV (hiddenV W1 B1 x)
  have z : FVec Ideal S16x128 .f32 := constant S16x128 .f32 0x00000000#32
  have p : FVec Ideal S16x128 .f32 := matmul dot_S16x64_S64x128_S16x128_1_0_0_1_n_n none W2 g z
  have b : FVec Ideal S16x128 .f32 := broadcastTo S16x128 B2 broadcasts_S16x1_S16x128
  have o : FVec Ideal S16x128 .f32 := addf p b
  shapeCast S1x16x128 o shapeCasts_S16x128_S1x16x128

variable (x0 : Vec Ideal S16x16x128 .f32) (x1 : Vec Ideal S64x16 .f32) (x2 : Vec Ideal S64x1 .f32) (x3 : Vec Ideal S16x64 .f32) (x4 : Vec Ideal S16x1 .f32)

/-! ## The staged weights are the weight blocks themselves

Each weight window is one block, loaded whole at offset zero and re-cast to its own shape. -/

theorem hz2 : (![0, 0] : Fin 2 → Nat) = fun _ => 0 := funext fun a => by fin_cases a <;> rfl

theorem w1_eq : k0_pay2 (View.ld x1 r0_0) = x1 :=
  (shapeCast_self (s := S64x16) (View.ld x1 r0_0) shapeCasts_S64x16_S64x16).trans (View.ld_unit_zero (S := S64x16) hz2 inb_S64x16_S64x16_0_0 x1)
theorem b1_eq : k0_pay3 (View.ld x2 r0_1) = x2 :=
  (shapeCast_self (s := S64x1) (View.ld x2 r0_1) shapeCasts_S64x1_S64x1).trans (View.ld_unit_zero (S := S64x1) hz2 inb_S64x1_S64x1_0_0 x2)
theorem w2_eq : k0_pay4 (View.ld x3 r0_2) = x3 :=
  (shapeCast_self (s := S16x64) (View.ld x3 r0_2) shapeCasts_S16x64_S16x64).trans (View.ld_unit_zero (S := S16x64) hz2 inb_S16x64_S16x64_0_0 x3)
theorem b2_eq : k0_pay5 (View.ld x4 r0_3) = x4 :=
  (shapeCast_self (s := S16x1) (View.ld x4 r0_3) shapeCasts_S16x1_S16x1).trans (View.ld_unit_zero (S := S16x1) hz2 inb_S16x1_S16x1_0_0 x4)

/-! ## Each of the 16 stores writes the row function of the row it loaded

The generated payloads cut the body at statement boundaries that fall inside a row's computation; every chain unfolds to
the same term. -/

theorem piece0 : k0_pay6 (View.ld x1 r0_0) (View.ld x2 r0_1) (View.ld x3 r0_2) (View.ld x4 r0_3) (View.ld x0 r0_4)
    = rowV (k0_pay2 (View.ld x1 r0_0)) (k0_pay3 (View.ld x2 r0_1)) (k0_pay4 (View.ld x3 r0_2)) (k0_pay5 (View.ld x4 r0_3)) (View.ld x0 r0_4) := rfl

theorem piece1 : k0_pay8 (k0_pay2 (View.ld x1 r0_0)) (k0_pay3 (View.ld x2 r0_1)) (k0_pay4 (View.ld x3 r0_2)) (k0_pay5 (View.ld x4 r0_3)) (k0_pay7 (View.ld x0 r0_5))
    = rowV (k0_pay2 (View.ld x1 r0_0)) (k0_pay3 (View.ld x2 r0_1)) (k0_pay4 (View.ld x3 r0_2)) (k0_pay5 (View.ld x4 r0_3)) (View.ld x0 r0_5) := rfl

theorem piece2 : k0_pay10 (k0_pay5 (View.ld x4 r0_3)) (k0_pay9 (k0_pay2 (View.ld x1 r0_0)) (k0_pay3 (View.ld x2 r0_1)) (k0_pay4 (View.ld x3 r0_2)) (View.ld x0 r0_6))
    = rowV (k0_pay2 (View.ld x1 r0_0)) (k0_pay3 (View.ld x2 r0_1)) (k0_pay4 (View.ld x3 r0_2)) (k0_pay5 (View.ld x4 r0_3)) (View.ld x0 r0_6) := rfl

theorem piece3 : k0_pay11 (k0_pay2 (View.ld x1 r0_0)) (k0_pay3 (View.ld x2 r0_1)) (k0_pay4 (View.ld x3 r0_2)) (k0_pay5 (View.ld x4 r0_3)) (View.ld x0 r0_7)
    = rowV (k0_pay2 (View.ld x1 r0_0)) (k0_pay3 (View.ld x2 r0_1)) (k0_pay4 (View.ld x3 r0_2)) (k0_pay5 (View.ld x4 r0_3)) (View.ld x0 r0_7) := rfl

theorem piece4 : k0_pay14 (k0_pay4 (View.ld x3 r0_2)) (k0_pay5 (View.ld x4 r0_3)) (k0_pay12 (k0_pay2 (View.ld x1 r0_0)) (k0_pay3 (View.ld x2 r0_1)) (View.ld x0 r0_8)) (k0_pay13 (k0_pay2 (View.ld x1 r0_0)) (k0_pay3 (View.ld x2 r0_1)) (View.ld x0 r0_8))
    = rowV (k0_pay2 (View.ld x1 r0_0)) (k0_pay3 (View.ld x2 r0_1)) (k0_pay4 (View.ld x3 r0_2)) (k0_pay5 (View.ld x4 r0_3)) (View.ld x0 r0_8) := rfl

theorem piece5 : k0_pay15 (k0_pay2 (View.ld x1 r0_0)) (k0_pay3 (View.ld x2 r0_1)) (k0_pay4 (View.ld x3 r0_2)) (k0_pay5 (View.ld x4 r0_3)) (View.ld x0 r0_9)
    = rowV (k0_pay2 (View.ld x1 r0_0)) (k0_pay3 (View.ld x2 r0_1)) (k0_pay4 (View.ld x3 r0_2)) (k0_pay5 (View.ld x4 r0_3)) (View.ld x0 r0_9) := rfl

theorem piece6 : k0_pay16 (k0_pay2 (View.ld x1 r0_0)) (k0_pay3 (View.ld x2 r0_1)) (k0_pay4 (View.ld x3 r0_2)) (k0_pay5 (View.ld x4 r0_3)) (View.ld x0 r0_10)
    = rowV (k0_pay2 (View.ld x1 r0_0)) (k0_pay3 (View.ld x2 r0_1)) (k0_pay4 (View.ld x3 r0_2)) (k0_pay5 (View.ld x4 r0_3)) (View.ld x0 r0_10) := rfl

theorem piece7 : k0_pay20 (k0_pay4 (View.ld x3 r0_2)) (k0_pay5 (View.ld x4 r0_3)) (k0_pay18 (k0_pay2 (View.ld x1 r0_0)) (k0_pay3 (View.ld x2 r0_1)) (View.ld x0 r0_11)) (k0_pay19 (k0_pay2 (View.ld x1 r0_0)) (k0_pay3 (View.ld x2 r0_1)) (View.ld x0 r0_11)) (Scalar.ofBits .f32 0x3F800000#32)
    = rowV (k0_pay2 (View.ld x1 r0_0)) (k0_pay3 (View.ld x2 r0_1)) (k0_pay4 (View.ld x3 r0_2)) (k0_pay5 (View.ld x4 r0_3)) (View.ld x0 r0_11) := rfl

theorem piece8 : k0_pay21 (k0_pay2 (View.ld x1 r0_0)) (k0_pay3 (View.ld x2 r0_1)) (k0_pay4 (View.ld x3 r0_2)) (k0_pay5 (View.ld x4 r0_3)) (View.ld x0 r0_12)
    = rowV (k0_pay2 (View.ld x1 r0_0)) (k0_pay3 (View.ld x2 r0_1)) (k0_pay4 (View.ld x3 r0_2)) (k0_pay5 (View.ld x4 r0_3)) (View.ld x0 r0_12) := rfl

theorem piece9 : k0_pay23 (k0_pay4 (View.ld x3 r0_2)) (k0_pay5 (View.ld x4 r0_3)) (k0_pay22 (k0_pay2 (View.ld x1 r0_0)) (k0_pay3 (View.ld x2 r0_1)) (View.ld x0 r0_13))
    = rowV (k0_pay2 (View.ld x1 r0_0)) (k0_pay3 (View.ld x2 r0_1)) (k0_pay4 (View.ld x3 r0_2)) (k0_pay5 (View.ld x4 r0_3)) (View.ld x0 r0_13) := rfl

theorem piece10 : k0_pay25 (k0_pay24 (k0_pay2 (View.ld x1 r0_0)) (k0_pay3 (View.ld x2 r0_1)) (k0_pay4 (View.ld x3 r0_2)) (k0_pay5 (View.ld x4 r0_3)) (View.ld x0 r0_14))
    = rowV (k0_pay2 (View.ld x1 r0_0)) (k0_pay3 (View.ld x2 r0_1)) (k0_pay4 (View.ld x3 r0_2)) (k0_pay5 (View.ld x4 r0_3)) (View.ld x0 r0_14) := rfl

theorem piece11 : k0_pay26 (k0_pay2 (View.ld x1 r0_0)) (k0_pay3 (View.ld x2 r0_1)) (k0_pay4 (View.ld x3 r0_2)) (k0_pay5 (View.ld x4 r0_3)) (View.ld x0 r0_15)
    = rowV (k0_pay2 (View.ld x1 r0_0)) (k0_pay3 (View.ld x2 r0_1)) (k0_pay4 (View.ld x3 r0_2)) (k0_pay5 (View.ld x4 r0_3)) (View.ld x0 r0_15) := rfl

theorem piece12 : k0_pay29 (k0_pay4 (View.ld x3 r0_2)) (k0_pay5 (View.ld x4 r0_3)) (k0_pay27 (k0_pay2 (View.ld x1 r0_0)) (k0_pay3 (View.ld x2 r0_1)) (View.ld x0 r0_16)) (k0_pay28 (k0_pay2 (View.ld x1 r0_0)) (k0_pay3 (View.ld x2 r0_1)) (View.ld x0 r0_16))
    = rowV (k0_pay2 (View.ld x1 r0_0)) (k0_pay3 (View.ld x2 r0_1)) (k0_pay4 (View.ld x3 r0_2)) (k0_pay5 (View.ld x4 r0_3)) (View.ld x0 r0_16) := rfl

theorem piece13 : k0_pay30 (k0_pay2 (View.ld x1 r0_0)) (k0_pay3 (View.ld x2 r0_1)) (k0_pay4 (View.ld x3 r0_2)) (k0_pay5 (View.ld x4 r0_3)) (View.ld x0 r0_17)
    = rowV (k0_pay2 (View.ld x1 r0_0)) (k0_pay3 (View.ld x2 r0_1)) (k0_pay4 (View.ld x3 r0_2)) (k0_pay5 (View.ld x4 r0_3)) (View.ld x0 r0_17) := rfl

theorem piece14 : k0_pay31 (k0_pay2 (View.ld x1 r0_0)) (k0_pay3 (View.ld x2 r0_1)) (k0_pay4 (View.ld x3 r0_2)) (k0_pay5 (View.ld x4 r0_3)) (View.ld x0 r0_18)
    = rowV (k0_pay2 (View.ld x1 r0_0)) (k0_pay3 (View.ld x2 r0_1)) (k0_pay4 (View.ld x3 r0_2)) (k0_pay5 (View.ld x4 r0_3)) (View.ld x0 r0_18) := rfl

theorem piece15 : k0_pay1 (k0_pay4 (View.ld x3 r0_2)) (k0_pay5 (View.ld x4 r0_3)) (k0_pay32 (k0_pay2 (View.ld x1 r0_0)) (k0_pay3 (View.ld x2 r0_1)) (View.ld x0 r0_19)) (constant S16x128 .f32 0x00000000#32)
    = rowV (k0_pay2 (View.ld x1 r0_0)) (k0_pay3 (View.ld x2 r0_1)) (k0_pay4 (View.ld x3 r0_2)) (k0_pay5 (View.ld x4 r0_3)) (View.ld x0 r0_19) := rfl

/-- What the body leaves in the output block: the 16 rows, each the row function of the corresponding loaded row. -/
theorem out_rows : out0_5 x0 x1 x2 x3 x4 = View.canon [⟨r0_19, rowV x1 x2 x3 x4 (View.ld x0 r0_19)⟩,
    ⟨r0_18, rowV x1 x2 x3 x4 (View.ld x0 r0_18)⟩,
    ⟨r0_17, rowV x1 x2 x3 x4 (View.ld x0 r0_17)⟩,
    ⟨r0_16, rowV x1 x2 x3 x4 (View.ld x0 r0_16)⟩,
    ⟨r0_15, rowV x1 x2 x3 x4 (View.ld x0 r0_15)⟩,
    ⟨r0_14, rowV x1 x2 x3 x4 (View.ld x0 r0_14)⟩,
    ⟨r0_13, rowV x1 x2 x3 x4 (View.ld x0 r0_13)⟩,
    ⟨r0_12, rowV x1 x2 x3 x4 (View.ld x0 r0_12)⟩,
    ⟨r0_11, rowV x1 x2 x3 x4 (View.ld x0 r0_11)⟩,
    ⟨r0_10, rowV x1 x2 x3 x4 (View.ld x0 r0_10)⟩,
    ⟨r0_9, rowV x1 x2 x3 x4 (View.ld x0 r0_9)⟩,
    ⟨r0_8, rowV x1 x2 x3 x4 (View.ld x0 r0_8)⟩,
    ⟨r0_7, rowV x1 x2 x3 x4 (View.ld x0 r0_7)⟩,
    ⟨r0_6, rowV x1 x2 x3 x4 (View.ld x0 r0_6)⟩,
    ⟨r0_5, rowV x1 x2 x3 x4 (View.ld x0 r0_5)⟩,
    ⟨r0_4, rowV x1 x2 x3 x4 (View.ld x0 r0_4)⟩] := by
  unfold out0_5
  rw [piece15 x0 x1 x2 x3 x4, piece14 x0 x1 x2 x3 x4, piece13 x0 x1 x2 x3 x4, piece12 x0 x1 x2 x3 x4, piece11 x0 x1 x2 x3 x4, piece10 x0 x1 x2 x3 x4, piece9 x0 x1 x2 x3 x4, piece8 x0 x1 x2 x3 x4, piece7 x0 x1 x2 x3 x4, piece6 x0 x1 x2 x3 x4, piece5 x0 x1 x2 x3 x4, piece4 x0 x1 x2 x3 x4, piece3 x0 x1 x2 x3 x4, piece2 x0 x1 x2 x3 x4, piece1 x0 x1 x2 x3 x4, piece0 x0 x1 x2 x3 x4]
  rw [w1_eq, b1_eq, w2_eq, b2_eq]

end Cert.ReferenceIdeal.RefValue

end
-- ==== Proof.RefRowAt.lean ====
/-
  The row function read at an entry.

  Entry (a, q) of the stored row is the sum over the 64 folded hidden coordinates c of W2 (a, c) times GELU of the hidden
  value c, plus the bias B2 a; the hidden value c at lane q is the sum over the 16 channels d of W1 (c, d) times the
  loaded row at (d, q), plus the bias B1 c. Both products accumulate into a zero block, so each is the plain sum over the
  contracted coordinate.
-/
import proofs.«158709_g2000504113187169_pallasbulk_347_2_alg».proof.Proof.RefRow
import proofs.«158709_g2000504113187169_pallasbulk_347_2_alg».proof.Proof.LibPlainMatmul

noncomputable section

namespace Cert.ReferenceIdeal.RefValue

open Cert.ReferenceIdeal Cert.ReferenceIdeal.Gen Idealize.ShloMosaic Idealize.ShloMosaic.ValueIdx Idealize.SL.Sem

/-- The two products are plain [m,k] by [k,n] products. -/
theorem dot1_plain : dot_S64x16_S16x128_S64x128_1_0_0_1_n_n = DotDims.plain 64 16 128 := rfl
theorem dot2_plain : dot_S16x64_S64x128_S16x128_1_0_0_1_n_n = DotDims.plain 16 64 128 := rfl

/-- The loaded [1,16,128] row read as [16,128]. -/
theorem row_cast_apply (x : Vec Ideal S1x16x128 .f32) (d : Fin 16) (q : Fin 128) :
    (shapeCast S16x128 x shapeCasts_S1x16x128_S16x128 : FVec Ideal S16x128 .f32) (ix2 d q) = x (ix3 0 d q) :=
  shapeCast_apply x shapeCasts_S1x16x128_S16x128 (ix2 d q) (ix3 0 d q) (by
    rw [Shape.rowMajor_val_three, Shape.rowMajor_val_two]
    show ((0 : ℕ) * 16 + d.val) * 128 + q.val = d.val * 128 + q.val
    omega)

/-- The hidden value c at lane q, before the activation. -/
theorem hiddenV_apply (W1 : FVec Ideal S64x16 .f32) (B1 : FVec Ideal S64x1 .f32) (x : Vec Ideal S1x16x128 .f32)
    (c : Fin 64) (q : Fin 128) :
    hiddenV W1 B1 x (ix2 c q) = (∑ d : Fin 16, W1 (ix2 c d) * x (ix3 0 d q)) + B1 (ix2 c 0) := by
  have h1 : matmul dot_S64x16_S16x128_S64x128_1_0_0_1_n_n none W1
      (shapeCast S16x128 x shapeCasts_S1x16x128_S16x128 : FVec Ideal S16x128 .f32)
      (constant (F := Ideal) S64x128 .f32 0x00000000#32) (ix2 c q) = ∑ d : Fin 16, W1 (ix2 c d) * x (ix3 0 d q) := by
    rw [dot1_plain]
    refine (Cert.Lib.matmul_plain_zero_apply (m := 64) (k := 16) (n := 128) none W1 _ c q).trans ?_
    exact Finset.sum_congr rfl fun d _ => by rw [row_cast_apply]
  have h2 : (broadcastTo S64x128 B1 broadcasts_S64x1_S64x128 : FVec Ideal S64x128 .f32) (ix2 c q) = B1 (ix2 c 0) :=
    broadcastTo_apply B1 broadcasts_S64x1_S64x128 (ix2 c q) (ix2 c 0) (fun a => by
      match a with
      | ⟨0, _⟩ => rfl
      | ⟨1, _⟩ => rfl)
  show _ + _ = _
  rw [h1, h2]

/-- Entry (a, q) of the stored row. -/
theorem rowV_apply (W1 : FVec Ideal S64x16 .f32) (B1 : FVec Ideal S64x1 .f32) (W2 : FVec Ideal S16x64 .f32) (B2 : FVec Ideal S16x1 .f32)
    (x : Vec Ideal S1x16x128 .f32) (a : Fin 16) (q : Fin 128) :
    rowV W1 B1 W2 B2 x (ix3 0 a q)
      = (∑ c : Fin 64, W2 (ix2 a c) * Cert.Spec.gelu ((∑ d : Fin 16, W1 (ix2 c d) * x (ix3 0 d q)) + B1 (ix2 c 0)))
        + B2 (ix2 a 0) := by
  have h1 : matmul dot_S16x64_S64x128_S16x128_1_0_0_1_n_n none W2 (Cert.Spec.geluV (hiddenV W1 B1 x))
      (constant (F := Ideal) S16x128 .f32 0x00000000#32) (ix2 a q)
      = ∑ c : Fin 64, W2 (ix2 a c) * Cert.Spec.gelu ((∑ d : Fin 16, W1 (ix2 c d) * x (ix3 0 d q)) + B1 (ix2 c 0)) := by
    rw [dot2_plain]
    refine (Cert.Lib.matmul_plain_zero_apply (m := 16) (k := 64) (n := 128) none W2 _ a q).trans ?_
    exact Finset.sum_congr rfl fun c _ => by rw [Cert.Spec.geluV_apply, hiddenV_apply]
  have h2 : (broadcastTo S16x128 B2 broadcasts_S16x1_S16x128 : FVec Ideal S16x128 .f32) (ix2 a q) = B2 (ix2 a 0) :=
    broadcastTo_apply B2 broadcasts_S16x1_S16x128 (ix2 a q) (ix2 a 0) (fun b => by
      match b with
      | ⟨0, _⟩ => rfl
      | ⟨1, _⟩ => rfl)
  unfold rowV
  refine (shapeCast_apply _ shapeCasts_S16x128_S1x16x128 (ix3 0 a q) (ix2 a q) (by
    rw [Shape.rowMajor_val_three, Shape.rowMajor_val_two]
    show a.val * 128 + q.val = ((0 : ℕ) * 16 + a.val) * 128 + q.val
    omega)).trans ?_
  show _ + _ = _
  rw [h1, h2]

end Cert.ReferenceIdeal.RefValue

end
-- ==== Proof.RefBlock.lean ====
/-
  What the body leaves in the output block, entry by entry.

  The 16 stores write the 16 rows of the [16,16,128] block, each through the rectangle of one row, and each store's
  value is the row function of the input block's row of the same number. So entry (r, a, q) of the block is the sum over
  the folded hidden coordinates c of W2 (a, c) times GELU of (the sum over the channels d of W1 (c, d) times the input
  block at (r, d, q), plus B1 c), plus B2 a.
-/
import proofs.«158709_g2000504113187169_pallasbulk_347_2_alg».proof.Proof.RefRowAt

noncomputable section

namespace Cert.ReferenceIdeal.RefValue

open Cert.ReferenceIdeal Cert.ReferenceIdeal.Gen Idealize.ShloMosaic Idealize.ShloMosaic.ValueIdx Idealize.SL.Sem

variable (X : Vec Ideal S16x16x128 .f32) (W1 : Vec Ideal S64x16 .f32) (B1 : Vec Ideal S64x1 .f32) (W2 : Vec Ideal S16x64 .f32)
  (B2 : Vec Ideal S16x1 .f32)

/-- Entry (r, a, q) of the block the body leaves. -/
def blockAt (r : Fin 16) (a : Fin 16) (q : Fin 128) : EReal :=
  (∑ c : Fin 64, W2 (ix2 a c) * Cert.Spec.gelu ((∑ d : Fin 16, W1 (ix2 c d) * X (ix3 r d q)) + B1 (ix2 c 0)))
    + B2 (ix2 a 0)

/-- The same as a function of the block index. -/
def blockFn : S16x16x128.Idx → EReal := fun y => blockAt X W1 B1 W2 B2 (y 0) (y 1) (y 2)

/-- The store of row k writes, at each of its entries, the block function at the entry's place in the block. -/
theorem row_piece (k : Fin 16) (inb : ∀ a, (![k.val, 0, 0] : Fin 3 → Nat) a + S1x16x128.size a ≤ S16x16x128.size a)
    (x : (Rect.unit (s := S16x16x128) ![k.val, 0, 0] S1x16x128.size inb).shape.Idx) :
    rowV W1 B1 W2 B2 (View.ld X (Rect.unit (s := S16x16x128) ![k.val, 0, 0] S1x16x128.size inb)) x
      = blockFn X W1 B1 W2 B2 ((Rect.unit (s := S16x16x128) ![k.val, 0, 0] S1x16x128.size inb).emb x) := by
  obtain ⟨a, q, rfl⟩ : ∃ (a : Fin 16) (q : Fin 128), x = ix3 0 a q := ⟨x 1, x 2, funext fun b => by
    match b with
    | ⟨0, _⟩ => exact Subsingleton.elim (α := Fin 1) _ _
    | ⟨1, _⟩ => rfl
    | ⟨2, _⟩ => rfl⟩
  have e : ∀ d : Fin 16, (Rect.unit (s := S16x16x128) ![k.val, 0, 0] S1x16x128.size inb).emb (ix3 0 d q) = ix3 k d q :=
    fun d => funext fun b => Fin.ext (by
      match b with
      | ⟨0, _⟩ => show k.val + 1 * 0 = k.val; omega
      | ⟨1, _⟩ => show 0 + 1 * d.val = d.val; omega
      | ⟨2, _⟩ => show 0 + 1 * q.val = q.val; omega)
  rw [rowV_apply, e a]
  show _ = blockAt X W1 B1 W2 B2 k a q
  unfold blockAt
  refine congrArg (fun u : EReal => u + B2 (ix2 a 0)) (Finset.sum_congr rfl fun c _ => ?_)
  refine congrArg (fun u : EReal => W2 (ix2 a c) * Cert.Spec.gelu (u + B1 (ix2 c 0))) (Finset.sum_congr rfl fun d _ => ?_)
  show W1 (ix2 c d) * X ((Rect.unit (s := S16x16x128) ![k.val, 0, 0] S1x16x128.size inb).emb (ix3 0 d q)) = _
  rw [e d]

/-- The block the body leaves is the block function. -/
theorem out_block (y : S16x16x128.Idx) : out0_5 X W1 B1 W2 B2 y = blockFn X W1 B1 W2 B2 y := by
  rw [out_rows]
  refine View.canon_apply_of_pieces (Val := Elt Ideal) (blockFn X W1 B1 W2 B2) _ ?_ y
    (cover0_5 (F := Ideal) _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact row_piece X W1 B1 W2 B2 ⟨15, by decide⟩ inb_S16x16x128_S1x16x128_15_0_0
  · exact row_piece X W1 B1 W2 B2 ⟨14, by decide⟩ inb_S16x16x128_S1x16x128_14_0_0
  · exact row_piece X W1 B1 W2 B2 ⟨13, by decide⟩ inb_S16x16x128_S1x16x128_13_0_0
  · exact row_piece X W1 B1 W2 B2 ⟨12, by decide⟩ inb_S16x16x128_S1x16x128_12_0_0
  · exact row_piece X W1 B1 W2 B2 ⟨11, by decide⟩ inb_S16x16x128_S1x16x128_11_0_0
  · exact row_piece X W1 B1 W2 B2 ⟨10, by decide⟩ inb_S16x16x128_S1x16x128_10_0_0
  · exact row_piece X W1 B1 W2 B2 ⟨9, by decide⟩ inb_S16x16x128_S1x16x128_9_0_0
  · exact row_piece X W1 B1 W2 B2 ⟨8, by decide⟩ inb_S16x16x128_S1x16x128_8_0_0
  · exact row_piece X W1 B1 W2 B2 ⟨7, by decide⟩ inb_S16x16x128_S1x16x128_7_0_0
  · exact row_piece X W1 B1 W2 B2 ⟨6, by decide⟩ inb_S16x16x128_S1x16x128_6_0_0
  · exact row_piece X W1 B1 W2 B2 ⟨5, by decide⟩ inb_S16x16x128_S1x16x128_5_0_0
  · exact row_piece X W1 B1 W2 B2 ⟨4, by decide⟩ inb_S16x16x128_S1x16x128_4_0_0
  · exact row_piece X W1 B1 W2 B2 ⟨3, by decide⟩ inb_S16x16x128_S1x16x128_3_0_0
  · exact row_piece X W1 B1 W2 B2 ⟨2, by decide⟩ inb_S16x16x128_S1x16x128_2_0_0
  · exact row_piece X W1 B1 W2 B2 ⟨1, by decide⟩ inb_S16x16x128_S1x16x128_1_0_0
  · exact row_piece X W1 B1 W2 B2 ⟨0, by decide⟩ inb_S16x16x128_S1x16x128_0_0_0

end Cert.ReferenceIdeal.RefValue

end
-- ==== Proof.RefHost.lean ====
/-
  The arrays the call is launched on, as functions of the argument arrays, and each read at an entry.

  The host lines before the call fold the weights: with eye the 2 by 2 identity of zeros and ones,
  W1b (32·i + h, 2·j + i') = w1 (h, j) · eye (i, i'),   b1b (32·i + h) = b1 h,
  W2b (8·i + k, 32·i' + h) = eye (i, i') · w2 (k, h),   b2b (8·i + k) = b2 k,
  and the input is re-read as 4096 rows. Every reshape keeps the row-major position, every broadcast repeats along the
  new axes.
-/
import proofs.«158709_g2000504113187169_pallasbulk_347_2_alg».proof.Proof.Gen.ReferenceIdeal.Frame
import proofs.«158709_g2000504113187169_pallasbulk_347_2_alg».proof.Proof.Spec
import Idealize.ShloMosaic.Lib.Pipeline.Value
import Idealize.ShloMosaic.Lib.IdealHost
import Idealize.ShloMosaic.Lib.StableHlo.Run

noncomputable section

namespace Cert.ReferenceIdeal.RefValue

open Cert.ReferenceIdeal Cert.ReferenceIdeal.Gen Idealize.ShloMosaic Idealize.ShloMosaic.TcCoe Idealize.ShloMosaic.ValueIdx Idealize.SL.Sem
open Idealize.ShloMosaic.StableHlo

/-! ## The launch arrays as terms of the arguments -/

/-- The 2 by 2 identity of zeros and ones: the comparison of the two coordinates, converted. -/
def eyeV : FVec Ideal S2x2 .f32 :=
  have z : IVec S2x2 32 := broadcastInDim S2x2 ![] bcast_S_S2x2 (constantI S_ 32 0#32)
  have r : IVec S2x2 32 := addi (iotaInDim S2x2 32 0) z
  have e : IVec S2x2 1 := cmpi .eq r (iotaInDim S2x2 32 1)
  uitofp .f32 e

/-- The folded first-layer weight. -/
def W1b (a1 : FVec Ideal S32x8 .f32) : FVec Ideal S64x16 .f32 :=
  have u : FVec Ideal S1x32x8x1 .f32 := broadcastInDim S1x32x8x1 ![1, 2] bcast_S32x8_S1x32x8x1_1_2 a1
  have v : FVec Ideal S2x1x1x2 .f32 := broadcastInDim S2x1x1x2 ![0, 3] bcast_S2x2_S2x1x1x2_0_3 eyeV
  have u' : FVec Ideal S2x32x8x2 .f32 := broadcastInDim S2x32x8x2 ![0, 1, 2, 3] bcast_S1x32x8x1_S2x32x8x2_0_1_2_3 u
  have v' : FVec Ideal S2x32x8x2 .f32 := broadcastInDim S2x32x8x2 ![0, 1, 2, 3] bcast_S2x1x1x2_S2x32x8x2_0_1_2_3 v
  have p : FVec Ideal S2x32x8x2 .f32 := mulf u' v'
  shapeCast S64x16 p shapeCasts_S2x32x8x2_S64x16

/-- The folded first-layer bias, as a column. -/
def b1b (a2 : FVec Ideal S32 .f32) : FVec Ideal S64x1 .f32 :=
  have u : FVec Ideal S1x32 .f32 := shapeCast S1x32 a2 shapeCasts_S32_S1x32
  have v : FVec Ideal S2x32 .f32 := broadcastInDim S2x32 ![0, 1] bcast_S1x32_S2x32_0_1 u
  have w : FVec Ideal S64 .f32 := shapeCast S64 v shapeCasts_S2x32_S64
  shapeCast S64x1 w shapeCasts_S64_S64x1

/-- The folded second-layer weight. -/
def W2b (a3 : FVec Ideal S8x32 .f32) : FVec Ideal S16x64 .f32 :=
  have v : FVec Ideal S2x1x2x1 .f32 := broadcastInDim S2x1x2x1 ![0, 2] bcast_S2x2_S2x1x2x1_0_2 eyeV
  have u : FVec Ideal S1x8x1x32 .f32 := broadcastInDim S1x8x1x32 ![1, 3] bcast_S8x32_S1x8x1x32_1_3 a3
  have v' : FVec Ideal S2x8x2x32 .f32 := broadcastInDim S2x8x2x32 ![0, 1, 2, 3] bcast_S2x1x2x1_S2x8x2x32_0_1_2_3 v
  have u' : FVec Ideal S2x8x2x32 .f32 := broadcastInDim S2x8x2x32 ![0, 1, 2, 3] bcast_S1x8x1x32_S2x8x2x32_0_1_2_3 u
  have p : FVec Ideal S2x8x2x32 .f32 := mulf v' u'
  shapeCast S16x64 p shapeCasts_S2x8x2x32_S16x64

/-- The folded second-layer bias, as a column. -/
def b2b (a4 : FVec Ideal S8 .f32) : FVec Ideal S16x1 .f32 :=
  have u : FVec Ideal S1x8 .f32 := shapeCast S1x8 a4 shapeCasts_S8_S1x8
  have v : FVec Ideal S2x8 .f32 := broadcastInDim S2x8 ![0, 1] bcast_S1x8_S2x8_0_1 u
  have w : FVec Ideal S16 .f32 := shapeCast S16 v shapeCasts_S2x8_S16
  shapeCast S16x1 w shapeCasts_S16_S16x1

/-- The input as 4096 rows. -/
def x3 (a0 : FVec Ideal S8x512x16x128 .f32) : FVec Ideal S4096x16x128 .f32 :=
  shapeCast S4096x16x128 a0 shapeCasts_S8x512x16x128_S4096x16x128

variable (m : (ℓ : Loc nD τ sig) → Buf (Elt Ideal) ℓ)

/-! ## What the call finds in its five operand arrays -/

theorem V_v26 (c : Dev nD) : (V m c main_v26 : S4096x16x128.Idx → EReal) = x3 (m ((c.tc : Thread nD τ).loc main_arg0)) := by
  show StableHlo.after hostOps0 (fun b => m (c, b)) (Proc.devRef .tc main_v26) = _
  after_results; rfl

theorem V_v11 (c : Dev nD) : (V m c main_v11 : S64x16.Idx → EReal) = W1b (m ((c.tc : Thread nD τ).loc main_arg1)) := by
  show StableHlo.after hostOps0 (fun b => m (c, b)) (Proc.devRef .tc main_v11) = _
  after_results; rfl

theorem V_v24 (c : Dev nD) : (V m c main_v24 : S64x1.Idx → EReal) = b1b (m ((c.tc : Thread nD τ).loc main_arg2)) := by
  show StableHlo.after hostOps0 (fun b => m (c, b)) (Proc.devRef .tc main_v24) = _
  after_results; rfl

theorem V_v20 (c : Dev nD) : (V m c main_v20 : S16x64.Idx → EReal) = W2b (m ((c.tc : Thread nD τ).loc main_arg3)) := by
  show StableHlo.after hostOps0 (fun b => m (c, b)) (Proc.devRef .tc main_v20) = _
  after_results; rfl

theorem V_v25 (c : Dev nD) : (V m c main_v25 : S16x1.Idx → EReal) = b2b (m ((c.tc : Thread nD τ).loc main_arg4)) := by
  show StableHlo.after hostOps0 (fun b => m (c, b)) (Proc.devRef .tc main_v25) = _
  after_results; rfl

/-! ## Each launch array at an entry -/

/-- The identity's entries are one on the diagonal and zero off it. -/
theorem eye_apply (i i' : Fin 2) : eyeV (ix2 i i') = if i = i' then (1 : EReal) else 0 := by
  have key : ∀ i i' : Fin 2, IntOp.cmpi .eq (IntOp.addi (BitVec.ofNat 32 i.val) 0#32) (BitVec.ofNat 32 i'.val)
      = if i = i' then 1#1 else 0#1 := by decide
  show (((IntOp.cmpi .eq (IntOp.addi (BitVec.ofNat 32 i.val) 0#32) (BitVec.ofNat 32 i'.val)).toNat : ℝ) : EReal) = _
  rw [key]
  by_cases h : i = i'
  · rw [if_pos h, if_pos h]; norm_num
  · rw [if_neg h, if_neg h]; norm_num

/-- Row 32·i + h, column 2·j + i' of the folded first weight. -/
theorem W1b_apply (a1 : FVec Ideal S32x8 .f32) (i : Fin 2) (h : Fin 32) (j : Fin 8) (i' : Fin 2)
    (c : Fin 64) (d : Fin 16) (hc : c.val = 32 * i.val + h.val) (hd : d.val = 2 * j.val + i'.val) :
    W1b a1 (ix2 c d) = a1 (ix2 h j) * eyeV (ix2 i i') := by
  unfold W1b
  refine (shapeCast_apply _ shapeCasts_S2x32x8x2_S64x16 (ix2 c d) (ix4 i h j i') (by
    rw [Shape.rowMajor_val_four, Shape.rowMajor_val_two]
    show ((i.val * 32 + h.val) * 8 + j.val) * 2 + i'.val = c.val * 16 + d.val
    omega)).trans ?_
  refine congrArg₂ (fun u v : EReal => u * v) ?_ ?_
  · refine (broadcastInDim_apply _ bcast_S1x32x8x1_S2x32x8x2_0_1_2_3 _ (ix4 i h j i') (ix4 0 h j 0) (fun a => by
      match a with
      | ⟨0, _⟩ => rfl
      | ⟨1, _⟩ => rfl
      | ⟨2, _⟩ => rfl
      | ⟨3, _⟩ => rfl)).trans ?_
    exact broadcastInDim_apply _ bcast_S32x8_S1x32x8x1_1_2 a1 (ix4 0 h j 0) (ix2 h j) (fun a => by
      match a with
      | ⟨0, _⟩ => rfl
      | ⟨1, _⟩ => rfl)
  · refine (broadcastInDim_apply _ bcast_S2x1x1x2_S2x32x8x2_0_1_2_3 _ (ix4 i h j i') (ix4 i 0 0 i') (fun a => by
      match a with
      | ⟨0, _⟩ => rfl
      | ⟨1, _⟩ => rfl
      | ⟨2, _⟩ => rfl
      | ⟨3, _⟩ => rfl)).trans ?_
    exact broadcastInDim_apply _ bcast_S2x2_S2x1x1x2_0_3 eyeV (ix4 i 0 0 i') (ix2 i i') (fun a => by
      match a with
      | ⟨0, _⟩ => rfl
      | ⟨1, _⟩ => rfl)

/-- Row 8·i + k, column 32·i' + h of the folded second weight. -/
theorem W2b_apply (a3 : FVec Ideal S8x32 .f32) (i : Fin 2) (k : Fin 8) (i' : Fin 2) (h : Fin 32)
    (a : Fin 16) (c : Fin 64) (ha : a.val = 8 * i.val + k.val) (hc : c.val = 32 * i'.val + h.val) :
    W2b a3 (ix2 a c) = eyeV (ix2 i i') * a3 (ix2 k h) := by
  unfold W2b
  refine (shapeCast_apply _ shapeCasts_S2x8x2x32_S16x64 (ix2 a c) (ix4 i k i' h) (by
    rw [Shape.rowMajor_val_four, Shape.rowMajor_val_two]
    show ((i.val * 8 + k.val) * 2 + i'.val) * 32 + h.val = a.val * 64 + c.val
    omega)).trans ?_
  refine congrArg₂ (fun u v : EReal => u * v) ?_ ?_
  · refine (broadcastInDim_apply _ bcast_S2x1x2x1_S2x8x2x32_0_1_2_3 _ (ix4 i k i' h) (ix4 i 0 i' 0) (fun a => by
      match a with
      | ⟨0, _⟩ => rfl
      | ⟨1, _⟩ => rfl
      | ⟨2, _⟩ => rfl
      | ⟨3, _⟩ => rfl)).trans ?_
    exact broadcastInDim_apply _ bcast_S2x2_S2x1x2x1_0_2 eyeV (ix4 i 0 i' 0) (ix2 i i') (fun a => by
      match a with
      | ⟨0, _⟩ => rfl
      | ⟨1, _⟩ => rfl)
  · refine (broadcastInDim_apply _ bcast_S1x8x1x32_S2x8x2x32_0_1_2_3 _ (ix4 i k i' h) (ix4 0 k 0 h) (fun a => by
      match a with
      | ⟨0, _⟩ => rfl
      | ⟨1, _⟩ => rfl
      | ⟨2, _⟩ => rfl
      | ⟨3, _⟩ => rfl)).trans ?_
    exact broadcastInDim_apply _ bcast_S8x32_S1x8x1x32_1_3 a3 (ix4 0 k 0 h) (ix2 k h) (fun a => by
      match a with
      | ⟨0, _⟩ => rfl
      | ⟨1, _⟩ => rfl)

/-- Entry 32·i + h of the folded first bias. -/
theorem b1b_apply (a2 : FVec Ideal S32 .f32) (i : Fin 2) (h : Fin 32) (c : Fin 64) (hc : c.val = 32 * i.val + h.val) :
    b1b a2 (ix2 c 0) = a2 (ix1 h) := by
  unfold b1b
  refine (shapeCast_apply _ shapeCasts_S64_S64x1 (ix2 c 0) (ix1 c) (by
    rw [Shape.rowMajor_val_one, Shape.rowMajor_val_two]
    show c.val = c.val * 1 + 0
    omega)).trans ?_
  refine (shapeCast_apply _ shapeCasts_S2x32_S64 (ix1 c) (ix2 i h) (by
    rw [Shape.rowMajor_val_one, Shape.rowMajor_val_two]
    show i.val * 32 + h.val = c.val
    omega)).trans ?_
  refine (broadcastInDim_apply _ bcast_S1x32_S2x32_0_1 _ (ix2 i h) (ix2 0 h) (fun a => by
      match a with
      | ⟨0, _⟩ => rfl
      | ⟨1, _⟩ => rfl)).trans ?_
  exact shapeCast_apply a2 shapeCasts_S32_S1x32 (ix2 0 h) (ix1 h) (by
    rw [Shape.rowMajor_val_one, Shape.rowMajor_val_two]
    show h.val = 0 * 32 + h.val
    omega)

/-- Entry 8·i + k of the folded second bias. -/
theorem b2b_apply (a4 : FVec Ideal S8 .f32) (i : Fin 2) (k : Fin 8) (a : Fin 16) (ha : a.val = 8 * i.val + k.val) :
    b2b a4 (ix2 a 0) = a4 (ix1 k) := by
  unfold b2b
  refine (shapeCast_apply _ shapeCasts_S16_S16x1 (ix2 a 0) (ix1 a) (by
    rw [Shape.rowMajor_val_one, Shape.rowMajor_val_two]
    show a.val = a.val * 1 + 0
    omega)).trans ?_
  refine (shapeCast_apply _ shapeCasts_S2x8_S16 (ix1 a) (ix2 i k) (by
    rw [Shape.rowMajor_val_one, Shape.rowMajor_val_two]
    show i.val * 8 + k.val = a.val
    omega)).trans ?_
  refine (broadcastInDim_apply _ bcast_S1x8_S2x8_0_1 _ (ix2 i k) (ix2 0 k) (fun a => by
      match a with
      | ⟨0, _⟩ => rfl
      | ⟨1, _⟩ => rfl)).trans ?_
  exact shapeCast_apply a4 shapeCasts_S8_S1x8 (ix2 0 k) (ix1 k) (by
    rw [Shape.rowMajor_val_one, Shape.rowMajor_val_two]
    show k.val = 0 * 8 + k.val
    omega)

end Cert.ReferenceIdeal.RefValue

end
-- ==== Proof.RefFold.lean ====
/-
  The folded sums collapse to the per-group sums.

  Row 32·i + h of the folded first weight is zero off the channels 2·j + i of group i, where it is w1 (h, j); row
  8·i + k of the folded second weight is zero off the hidden coordinates 32·i + h of group i, where it is w2 (k, h).
  A product with the zero entry vanishes for every extended real, and the unit entry drops out, so the sum over the 16
  channels is the sum over the 8 features of group i and the sum over the 64 folded hidden coordinates is the sum over
  the 32 hidden values of group i: no finiteness is used.
-/
import proofs.«158709_g2000504113187169_pallasbulk_347_2_alg».proof.Proof.RefHost

noncomputable section

namespace Cert.ReferenceIdeal.RefValue

open Cert.ReferenceIdeal Idealize.ShloMosaic Idealize.ShloMosaic.ValueIdx

/-- A channel d is feature d / 2 of group d % 2. -/
def chanSplit : Fin 16 ≃ Fin 2 × Fin 8 where
  toFun d := (⟨d.val % 2, Nat.mod_lt _ (by omega)⟩, ⟨d.val / 2, by have := d.isLt; omega⟩)
  invFun p := ⟨2 * p.2.val + p.1.val, by have := p.1.isLt; have := p.2.isLt; omega⟩
  left_inv d := Fin.ext (by show 2 * (d.val / 2) + d.val % 2 = d.val; omega)
  right_inv p := by
    obtain ⟨i, j⟩ := p
    refine Prod.ext (Fin.ext ?_) (Fin.ext ?_)
    · show (2 * j.val + i.val) % 2 = i.val
      have := i.isLt; omega
    · show (2 * j.val + i.val) / 2 = j.val
      have := i.isLt; omega

/-- A folded hidden coordinate c is hidden value c % 32 of group c / 32. -/
def hidSplit : Fin 64 ≃ Fin 2 × Fin 32 where
  toFun c := (⟨c.val / 32, by have := c.isLt; omega⟩, ⟨c.val % 32, Nat.mod_lt _ (by omega)⟩)
  invFun p := ⟨32 * p.1.val + p.2.val, by have := p.1.isLt; have := p.2.isLt; omega⟩
  left_inv c := Fin.ext (by show 32 * (c.val / 32) + c.val % 32 = c.val; omega)
  right_inv p := by
    obtain ⟨i, h⟩ := p
    refine Prod.ext (Fin.ext ?_) (Fin.ext ?_)
    · show (32 * i.val + h.val) / 32 = i.val
      have := h.isLt; omega
    · show (32 * i.val + h.val) % 32 = h.val
      have := h.isLt; omega

variable (a0 : FVec Ideal S8x512x16x128 .f32) (a1 : FVec Ideal S32x8 .f32) (a2 : FVec Ideal S32 .f32)
  (a3 : FVec Ideal S8x32 .f32) (a4 : FVec Ideal S8 .f32)

/-- The folded hidden coordinate 32·i + h of a row is hidden value h of group i. -/
theorem hidden_fold (R : Fin 4096) (q : Fin 128) (i : Fin 2) (h : Fin 32) (c : Fin 64) (hc : c.val = 32 * i.val + h.val) :
    (∑ d : Fin 16, W1b a1 (ix2 c d) * x3 a0 (ix3 R d q)) + b1b a2 (ix2 c 0)
      = Cert.Spec.hidden (x3 a0) a1 a2 R i q h := by
  unfold Cert.Spec.hidden
  rw [b1b_apply a2 i h c hc]
  refine congrArg (fun u : EReal => u + a2 (ix1 h)) ?_
  rw [Cert.Spec.sum_block chanSplit i (fun d => W1b a1 (ix2 c d) * x3 a0 (ix3 R d q)) (fun d hd => by
    have e := W1b_apply a1 i h (chanSplit d).2 (chanSplit d).1 c d hc (by
      show d.val = 2 * (d.val / 2) + d.val % 2
      omega)
    show W1b a1 (ix2 c d) * x3 a0 (ix3 R d q) = 0
    rw [e, eye_apply, if_neg (fun e' => hd e'.symm), mul_zero, zero_mul])]
  refine Finset.sum_congr rfl fun j _ => ?_
  show W1b a1 (ix2 c (Cert.Spec.inCh j i)) * x3 a0 (ix3 R (Cert.Spec.inCh j i) q) = a1 (ix2 h j) * x3 a0 (ix3 R (Cert.Spec.inCh j i) q)
  rw [W1b_apply a1 i h j i c (Cert.Spec.inCh j i) hc rfl, eye_apply, if_pos rfl, mul_one]

/-- Channel 8·i + k of a row of the result is output k of group i. -/
theorem out_fold (R : Fin 4096) (q : Fin 128) (i : Fin 2) (k : Fin 8) (a : Fin 16) (ha : a.val = 8 * i.val + k.val) :
    (∑ c : Fin 64, W2b a3 (ix2 a c)
        * Cert.Spec.gelu ((∑ d : Fin 16, W1b a1 (ix2 c d) * x3 a0 (ix3 R d q)) + b1b a2 (ix2 c 0)))
      + b2b a4 (ix2 a 0)
      = Cert.Spec.out (x3 a0) a1 a2 a3 a4 R i k q := by
  unfold Cert.Spec.out
  rw [b2b_apply a4 i k a ha]
  refine congrArg (fun u : EReal => u + a4 (ix1 k)) ?_
  rw [Cert.Spec.sum_block hidSplit i (fun c => W2b a3 (ix2 a c)
      * Cert.Spec.gelu ((∑ d : Fin 16, W1b a1 (ix2 c d) * x3 a0 (ix3 R d q)) + b1b a2 (ix2 c 0))) (fun c hc => by
    have e := W2b_apply a3 i k (hidSplit c).1 (hidSplit c).2 a c ha (by
      show c.val = 32 * (c.val / 32) + c.val % 32
      omega)
    show W2b a3 (ix2 a c) * _ = 0
    rw [e, eye_apply, if_neg (fun e' => hc e'.symm), zero_mul, zero_mul])]
  refine Finset.sum_congr rfl fun h _ => ?_
  show W2b a3 (ix2 a (hidSplit.symm (i, h)))
      * Cert.Spec.gelu ((∑ d : Fin 16, W1b a1 (ix2 (hidSplit.symm (i, h)) d) * x3 a0 (ix3 R d q)) + b1b a2 (ix2 (hidSplit.symm (i, h)) 0))
    = a3 (ix2 k h) * Cert.Spec.gelu (Cert.Spec.hidden (x3 a0) a1 a2 R i q h)
  rw [W2b_apply a3 i k i h a (hidSplit.symm (i, h)) ha rfl, eye_apply, if_pos rfl, one_mul,
    hidden_fold a0 a1 a2 R q i h (hidSplit.symm (i, h)) rfl]

/-- Entry (R, a, q) of the rows of the result, from the folded arrays. -/
theorem rows_fold (R : Fin 4096) (a : Fin 16) (q : Fin 128) :
    (∑ c : Fin 64, W2b a3 (ix2 a c)
        * Cert.Spec.gelu ((∑ d : Fin 16, W1b a1 (ix2 c d) * x3 a0 (ix3 R d q)) + b1b a2 (ix2 c 0)))
      + b2b a4 (ix2 a 0)
      = Cert.Spec.rows (x3 a0) a1 a2 a3 a4 (ix3 R a q) := by
  rw [out_fold a0 a1 a2 a3 a4 R q ⟨a.val / 8, by have := a.isLt; omega⟩ ⟨a.val % 8, Nat.mod_lt _ (by omega)⟩ a (by
    show a.val = 8 * (a.val / 8) + a.val % 8
    omega)]
  rfl

end Cert.ReferenceIdeal.RefValue

end
-- ==== Proof.RefArray.lean ====
/-
  What each grid point writes back, and the whole array after the last point.

  Point t's input block is rows 16·t … 16·t + 15 of the input re-read as 4096 rows, the four weight and bias windows
  are whole arrays at every point, and its output block is rows 16·t … 16·t + 15 of the result. The block the body
  leaves is therefore the restriction of the perceptron over the rows to those 16 rows. The 256 blocks tile the 4096 rows
  (row R is in block R / 16), so after the last point the array is the perceptron over all rows.
-/
import proofs.«158709_g2000504113187169_pallasbulk_347_2_alg».proof.Proof.RefBlock
import proofs.«158709_g2000504113187169_pallasbulk_347_2_alg».proof.Proof.RefFold

set_option maxRecDepth 16384

noncomputable section

namespace Cert.ReferenceIdeal.RefValue

open Cert.ReferenceIdeal Cert.ReferenceIdeal.Gen Idealize.ShloMosaic Idealize.ShloMosaic.TcCoe Idealize.ShloMosaic.ValueIdx Idealize.SL.Sem
open Idealize.ShloMosaic.Pipeline (Dat)

/-- On 16 rows whose input block holds rows 16·T … of the input: the block the body leaves, over the folded weights, is
    the perceptron's rows. -/
theorem block_rows (X : Vec Ideal S16x16x128 .f32) (a0 : FVec Ideal S8x512x16x128 .f32) (a1 : FVec Ideal S32x8 .f32)
    (a2 : FVec Ideal S32 .f32) (a3 : FVec Ideal S8x32 .f32) (a4 : FVec Ideal S8 .f32) (T : Nat) (hT : T < 256)
    (hX : ∀ (r : Fin 16) (d : Fin 16) (q : Fin 128) (R : Fin 4096) (_ : R.val = 16 * T + r.val), X (ix3 r d q) = x3 a0 (ix3 R d q))
    (y : S16x16x128.Idx) (z : S4096x16x128.Idx) (hz0 : (z 0).val = 16 * T + (y 0).val) (hz1 : (z 1).val = (y 1).val)
    (hz2 : (z 2).val = (y 2).val) :
    blockFn X (W1b a1) (b1b a2) (W2b a3) (b2b a4) y = Cert.Spec.rows (x3 a0) a1 a2 a3 a4 z := by
  obtain ⟨r, a, q, rfl⟩ : ∃ (r : Fin 16) (a : Fin 16) (q : Fin 128), y = ix3 r a q := ⟨y 0, y 1, y 2, eq_ix3 y⟩
  have hz0' : (z 0).val = 16 * T + r.val := hz0
  have hz1' : (z 1).val = a.val := hz1
  have hz2' : (z 2).val = q.val := hz2
  have hr : r.val < 16 := r.isLt
  have hR : 16 * T + r.val < 4096 := by omega
  have ez : z = ix3 (⟨16 * T + r.val, hR⟩ : Fin 4096) a q := funext fun b => Fin.ext (by
    match b with
    | ⟨0, _⟩ => exact hz0'
    | ⟨1, _⟩ => exact hz1'
    | ⟨2, _⟩ => exact hz2')
  rw [ez, ← rows_fold a0 a1 a2 a3 a4 ⟨16 * T + r.val, hR⟩ a q]
  show blockAt X (W1b a1) (b1b a2) (W2b a3) (b2b a4) r a q = _
  unfold blockAt
  refine congrArg (fun u : EReal => u + b2b a4 (ix2 a 0)) (Finset.sum_congr rfl fun c _ => ?_)
  refine congrArg (fun u : EReal => W2b a3 (ix2 a c) * Cert.Spec.gelu (u + b1b a2 (ix2 c 0))) (Finset.sum_congr rfl fun d _ => ?_)
  rw [hX r d q ⟨16 * T + r.val, hR⟩ rfl]

variable (m : (ℓ : Loc nD τ sig) → Buf (Elt Ideal) ℓ) (c : Dev nD)

/-- The printed index maps over the grid: the input and output blocks move with the point, the weights stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem iblk1 (t : Fin cfg0.N) : iblk m c 1 t = W1b (m ((c : Thread nD τ).loc main_arg1)) := by
  obtain ⟨-, -, -, e0, e1, -⟩ := idx_facts t
  funext j
  show V m c main_v11 (((cfg0.win 1).blk t).view.emb j) = _
  have ej : ((cfg0.win 1).blk t).view.emb j = j := funext fun a => Fin.ext (by
    match a with
    | ⟨0, _⟩ => show win0_1.index t (0 : Fin 2) * 64 + 1 * (j 0).val = (j 0).val; omega
    | ⟨1, _⟩ => show win0_1.index t (1 : Fin 2) * 16 + 1 * (j 1).val = (j 1).val; omega)
  rw [ej]; exact congrFun (V_v11 m c) j

theorem iblk2 (t : Fin cfg0.N) : iblk m c 2 t = b1b (m ((c : Thread nD τ).loc main_arg2)) := by
  obtain ⟨-, -, -, -, -, e0, e1, -⟩ := idx_facts t
  funext j
  show V m c main_v24 (((cfg0.win 2).blk t).view.emb j) = _
  have ej : ((cfg0.win 2).blk t).view.emb j = j := funext fun a => Fin.ext (by
    match a with
    | ⟨0, _⟩ => show win0_2.index t (0 : Fin 2) * 64 + 1 * (j 0).val = (j 0).val; omega
    | ⟨1, _⟩ => show win0_2.index t (1 : Fin 2) * 1 + 1 * (j 1).val = (j 1).val; omega)
  rw [ej]; exact congrFun (V_v24 m c) j

theorem iblk3 (t : Fin cfg0.N) : iblk m c 3 t = W2b (m ((c : Thread nD τ).loc main_arg3)) := by
  obtain ⟨-, -, -, -, -, -, -, e0, e1, -⟩ := idx_facts t
  funext j
  show V m c main_v20 (((cfg0.win 3).blk t).view.emb j) = _
  have ej : ((cfg0.win 3).blk t).view.emb j = j := funext fun a => Fin.ext (by
    match a with
    | ⟨0, _⟩ => show win0_3.index t (0 : Fin 2) * 16 + 1 * (j 0).val = (j 0).val; omega
    | ⟨1, _⟩ => show win0_3.index t (1 : Fin 2) * 64 + 1 * (j 1).val = (j 1).val; omega)
  rw [ej]; exact congrFun (V_v20 m c) j

theorem iblk4 (t : Fin cfg0.N) : iblk m c 4 t = b2b (m ((c : Thread nD τ).loc main_arg4)) := by
  obtain ⟨-, -, -, -, -, -, -, -, -, e0, e1, -⟩ := idx_facts t
  funext j
  show V m c main_v25 (((cfg0.win 4).blk t).view.emb j) = _
  have ej : ((cfg0.win 4).blk t).view.emb j = j := funext fun a => Fin.ext (by
    match a with
    | ⟨0, _⟩ => show win0_4.index t (0 : Fin 2) * 16 + 1 * (j 0).val = (j 0).val; omega
    | ⟨1, _⟩ => show win0_4.index t (1 : Fin 2) * 1 + 1 * (j 1).val = (j 1).val; omega)
  rw [ej]; exact congrFun (V_v25 m c) j

/-- The perceptron over all rows of the input as launched. -/
def G : S4096x16x128.Idx → Elt Ideal .f32 :=
  Cert.Spec.rows (x3 (m ((c : Thread nD τ).loc main_arg0))) (m ((c : Thread nD τ).loc main_arg1)) (m ((c : Thread nD τ).loc main_arg2))
    (m ((c : Thread nD τ).loc main_arg3)) (m ((c : Thread nD τ).loc main_arg4))

/-- Row r of point t's input block is row 16·t + r of the input. -/
theorem iblk0_apply (t : Fin cfg0.N) (r : Fin 16) (d : Fin 16) (q : Fin 128) (R : Fin 4096) (hR : R.val = 16 * t.val + r.val) :
    iblk m c 0 t (ix3 r d q) = x3 (m ((c : Thread nD τ).loc main_arg0)) (ix3 R d q) := by
  obtain ⟨e0, e1, e2, -⟩ := idx_facts t
  show V m c main_v26 (((cfg0.win 0).blk t).view.emb (ix3 r d q)) = _
  have ej : ((cfg0.win 0).blk t).view.emb (ix3 r d q) = ix3 R d q := funext fun a => Fin.ext (by
    match a with
    | ⟨0, _⟩ => show win0_0.index t (0 : Fin 3) * 16 + 1 * r.val = R.val; omega
    | ⟨1, _⟩ => show win0_0.index t (1 : Fin 3) * 16 + 1 * d.val = d.val; omega
    | ⟨2, _⟩ => show win0_0.index t (2 : Fin 3) * 128 + 1 * q.val = q.val; omega)
  rw [ej]; exact congrFun (V_v26 m c) (ix3 R d q)

/-- WHAT POINT t WRITES BACK is block t of the perceptron over the rows. -/
theorem flushed_eq (t : Fin cfg0.N) :
    (dats m 0 c).flushed 5 t = ((cfg0.win 5).blk t).view.read (Elt Ideal) (G m c) := by
  show (cfg0.win 5).cut (grid0.coords t) ((dats m 0 c).after 5 t) = _
  rw [after0_5]
  obtain ⟨-, -, -, -, -, -, -, -, -, -, -, e0, e1, e2⟩ := idx_facts t
  have ht : t.val < 256 := lt_of_lt_of_eq t.isLt N_0
  funext y
  show out0_5 (iblk m c 0 t) (iblk m c 1 t) (iblk m c 2 t) (iblk m c 3 t) (iblk m c 4 t) y
    = G m c (((cfg0.win 5).blk t).view.emb y)
  refine (out_block (iblk m c 0 t) (iblk m c 1 t) (iblk m c 2 t) (iblk m c 3 t) (iblk m c 4 t) y).trans ?_
  rw [iblk1 m c t, iblk2 m c t, iblk3 m c t, iblk4 m c t]
  exact block_rows (iblk m c 0 t) _ _ _ _ _ t.val ht
    (fun r d q R hR => iblk0_apply m c t r d q R hR) y _
    (by show win0_5.index t (0 : Fin 3) * 16 + 1 * (y 0).val = 16 * t.val + (y 0).val; omega)
    (by show win0_5.index t (1 : Fin 3) * 16 + 1 * (y 1).val = (y 1).val; omega)
    (by show win0_5.index t (2 : Fin 3) * 128 + 1 * (y 2).val = (y 2).val; omega)

/-- A row index is in point t's block iff each coordinate is in the block's range on its axis. -/
theorem mem_blk (t : Fin cfg0.N) (i : S4096x16x128.Idx) :
    i ∈ ((cfg0.win 5).blk t).view.set ↔ ∀ a : Fin 3, win0_5.index t a * S16x16x128.size a ≤ (i a).val
      ∧ (i a).val < win0_5.index t a * S16x16x128.size a + S16x16x128.size a := by
  show i ∈ ((View.whole main_v27).slice (win0_5.rect t)).set ↔ _
  rw [View.set_slice_whole, Rect.mem_set_unit]
  exact Iff.rfl

/-- Every row is in the block of the point R / 16. -/
theorem cover (i : S4096x16x128.Idx) : ∃ t : Fin cfg0.N, (cfg0.win 5).flush t = true ∧ i ∈ ((cfg0.win 5).blk t).view.set := by
  have hi0 : (i 0).val < 4096 := (i 0).isLt
  have hi1 : (i 1).val < 16 := (i 1).isLt
  have hi2 : (i 2).val < 128 := (i 2).isLt
  let t : Fin cfg0.N := ⟨(i 0).val / 16, lt_of_lt_of_eq (by omega) N_0.symm⟩
  obtain ⟨-, -, -, -, -, -, -, -, -, -, -, e0, e1, e2⟩ := idx_facts t
  have et : t.val = (i 0).val / 16 := rfl
  refine ⟨t, flush0_5 t, ?_⟩
  rw [mem_blk]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 16 ≤ (i 1).val ∧ (i 1).val < win0_5.index t (1 : Fin 3) * 16 + 16; omega
  | ⟨2, _⟩ => show win0_5.index t (2 : Fin 3) * 128 ≤ (i 2).val ∧ (i 2).val < win0_5.index t (2 : Fin 3) * 128 + 128; omega

/-- THE ARRAY after the last point: the perceptron over the rows. -/
theorem final : (dats m 0 c).arrAt 5 cfg0.N = G m c :=
  (dats m 0 c).arrAt_eq_of_cover 5 (G m c) (fun t _ => flushed_eq m c t) (cover)

end Cert.ReferenceIdeal.RefValue

end
-- ==== Proof.RefRun.lean ====
/-
  The reference's run, read.

  After the call the region's array holds the perceptron over the 4096 rows of the input; the one host line after it
  re-reads those rows as [8, 512, 16, 128], which is the specification's result of the five argument arrays. No line of
  the program writes an argument array.
-/
import proofs.«158709_g2000504113187169_pallasbulk_347_2_alg».proof.Proof.RefArray

set_option maxRecDepth 16384

noncomputable section

namespace Cert.ReferenceIdeal.RefValue

open Cert.ReferenceIdeal Cert.ReferenceIdeal.Gen Idealize.ShloMosaic Idealize.ShloMosaic.TcCoe Idealize.ShloMosaic.ValueIdx Idealize.SL.Sem
open Idealize.ShloMosaic.StableHlo

section Tail

variable (m : (ℓ : Loc nD τ sig) → Buf (Elt Ideal) ℓ) (c : Dev nD)

/-- The host line after the call re-reads the rows as [8, 512, 16, 128]. -/
theorem tail : Pipeline.afterTail₀ cfgs (dats m) 0 (V0 m) [hostOps1] c main_v28
    = Cert.Spec.result (m ((c : Thread nD τ).loc main_arg0)) (m ((c : Thread nD τ).loc main_arg1))
        (m ((c : Thread nD τ).loc main_arg2)) (m ((c : Thread nD τ).loc main_arg3)) (m ((c : Thread nD τ).loc main_arg4)) := by
  unfold Pipeline.afterTail₀
  show StableHlo.after hostOps1 _ (Proc.devRef .tc main_v28) = _
  after_results
  rw [show Pipeline.withArrays spec0 c (V0 m c) (fun w => (dats m 0 c).arrAt w cfg0.N) (Proc.devRef .tc main_v27) = G m c from
    (Pipeline.withArrays_arr spec0 launch0.win.arr_inj c _ _ 5).trans (final m c)]
  rfl

end Tail

/-- The run: the result array at the specification's function of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v28 (Pipeline.mem_restRefs_of main_v28 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.RefValue

end
-- ==== Proof.lean ====
/-
  Both programs are the same per-group two-layer perceptron with the tanh form of GELU, laid out differently.

  The input [8, 512, 16, 128] is 4096 rows of 16 channels by 128 lanes; channel 2·j + i is feature j of group i, and output
  channel 8·i + k is output k of group i:
    y (r, 8·i + k, q) = Σ_h w2 (k, h) · gelu (Σ_j w1 (h, j) · x (r, 2·j + i, q) + b1 h) + b2 k.
  The kernel folds 16 rows into one product with weights that are block-diagonal over the rows (identity ⊗ w), reading a row
  as [8, 256] so that the two groups sit side by side in the lanes; the reference folds the two groups of one row into
  one product with weights that are block-diagonal over the groups. In both, the identity is a 0/1 array, and the
  contraction over the long folded axis collapses to the short one because 0 · y = 0 and 1 · y = y at every extended real:
  no finiteness is used. Changes of float format are the identity on extended reals, and the GELU is spelt with the
  same constants in the same order on both sides.

  Proof/Spec.lean states that function; Proof/Ker*.lean read the kernel's run as it, Proof/Ref*.lean the reference's;
  here the two runs are put side by side from memories that agree on the arguments. The three frames are the generated
  ones, and the idealization rewrote nothing.
-/
import proofs.«158709_g2000504113187169_pallasbulk_347_2_alg».proof.Defs
import proofs.«158709_g2000504113187169_pallasbulk_347_2_alg».proof.Proof.Gen.Kernel
import proofs.«158709_g2000504113187169_pallasbulk_347_2_alg».proof.Proof.Gen.Kernel.Skeleton
import proofs.«158709_g2000504113187169_pallasbulk_347_2_alg».proof.Proof.Gen.Kernel.Launch
import proofs.«158709_g2000504113187169_pallasbulk_347_2_alg».proof.Proof.Gen.Kernel.Points
import proofs.«158709_g2000504113187169_pallasbulk_347_2_alg».proof.Proof.Gen.Kernel.Frame
import proofs.«158709_g2000504113187169_pallasbulk_347_2_alg».proof.Proof.Gen.KernelIdeal
import proofs.«158709_g2000504113187169_pallasbulk_347_2_alg».proof.Proof.Gen.KernelIdeal.Skeleton
import proofs.«158709_g2000504113187169_pallasbulk_347_2_alg».proof.Proof.Gen.KernelIdeal.Launch
import proofs.«158709_g2000504113187169_pallasbulk_347_2_alg».proof.Proof.Gen.KernelIdeal.Points
import proofs.«158709_g2000504113187169_pallasbulk_347_2_alg».proof.Proof.Gen.KernelIdeal.Frame
import proofs.«158709_g2000504113187169_pallasbulk_347_2_alg».proof.Proof.Gen.ReferenceIdeal
import proofs.«158709_g2000504113187169_pallasbulk_347_2_alg».proof.Proof.Gen.ReferenceIdeal.Skeleton
import proofs.«158709_g2000504113187169_pallasbulk_347_2_alg».proof.Proof.Gen.ReferenceIdeal.Launch
import proofs.«158709_g2000504113187169_pallasbulk_347_2_alg».proof.Proof.Gen.ReferenceIdeal.Points
import proofs.«158709_g2000504113187169_pallasbulk_347_2_alg».proof.Proof.Gen.ReferenceIdeal.Frame
import proofs.«158709_g2000504113187169_pallasbulk_347_2_alg».proof.Proof.Gen.Pre_finite_inputs
import proofs.«158709_g2000504113187169_pallasbulk_347_2_alg».proof.Proof.KerRun
import proofs.«158709_g2000504113187169_pallasbulk_347_2_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- From memories that agree on the five arguments both runs end with the result array at the one function of those
    arguments, and leave the arguments as they were. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ?_) (Cert.ReferenceIdeal.RefValue.run m' ρ')
  obtain ⟨h0, h1, h2, h3, h4, h5⟩ := h c
  obtain ⟨a0, a1, a2, a3, a4⟩ := hagree c
  exact ⟨by rw [h0, a0, a1, a2, a3, a4], h1, h2, h3, h4, h5⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
